-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  main_v23

def fn {F : FTy → Type} [FloatOps F] (main_arg0 : FVec F S10000x128 .f32) (main_arg1 : FVec F S10000x10000 .f32) (main_arg2 : FVec F S10000x10000 .f32) (main_arg3 : FVec F S128x128 .f32) (main_arg4 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S304x10000 : Shape := ⟨2, ![304, 10000]⟩
abbrev S304x128 : Shape := ⟨2, ![304, 128]⟩

abbrev nBuf : Space → Nat
  | .hbm => 7
  | .vmem => 13
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S128x128, .f32⟩
  | .hbm, ⟨5, _⟩ => ⟨S10000x128, .f32⟩
  | .hbm, ⟨6, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S128x128, .f32⟩
  | .local _ .vmem, ⟨3, _⟩ => ⟨S304x10000, .f32⟩
  | .local _ .vmem, ⟨4, _⟩ => ⟨S304x10000, .f32⟩
  | .local _ .vmem, ⟨5, _⟩ => ⟨S304x10000, .f32⟩
  | .local _ .vmem, ⟨6, _⟩ => ⟨S304x10000, .f32⟩
  | .local _ .vmem, ⟨7, _⟩ => ⟨S304x128, .f32⟩
  | .local _ .vmem, ⟨8, _⟩ => ⟨S304x128, .f32⟩
  | .local _ .vmem, ⟨9, _⟩ => ⟨S304x128, .f32⟩
  | .local _ .vmem, ⟨10, _⟩ => ⟨S304x128, .f32⟩
  | .local _ .vmem, ⟨11, _⟩ => ⟨S10000x128, .bf16⟩
  | .local _ .vmem, ⟨12, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S304x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S304x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S304x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S304x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S304x10000_S304x10000_0_0 : ∀ a, (![0, 0] : Fin 2 → Nat) a + S304x10000.size a ≤ S304x10000.size a
  h_S304x10000 : 0 < S304x10000.numel
  inb_S304x128_S304x128_0_0 : ∀ a, (![0, 0] : Fin 2 → Nat) a + S304x128.size a ≤ S304x128.size a
  h_S304x128 : 0 < S304x128.numel
  dot_S10000x128_S128x128_S10000x128_1_0_0_1_n_n_wf : DotDims.WF S10000x128 S128x128 S10000x128 [1] [0] [0] [1] [] []
  dot_S304x10000_S10000x128_S304x128_1_0_0_1_n_n_wf : DotDims.WF S304x10000 S10000x128 S304x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S304x10000.size a < S10000x10000.size a
  hwx0_3 : ∀ i : grid0.Coords, EltTy.bits .f32 = 32 ∨ (Rect.unit (s := S10000x10000) (fun a => cc0_transform_3 i a * S304x10000.size a) (fun a => (Pipeline.Clip.of (cc0_transform_3 i a) (S304x10000.size a) (S10000x10000.size a)).extent (S304x10000.size a)) fun a => Pipeline.Clip.inb (Pipeline.Clip.ok_of (hstart0_3 i a))).WholeWords (EltTy.packing .f32)
  hwxs0_3 : ∀ i : grid0.Coords, EltTy.bits .f32 = 32 ∨ (Rect.unit (s := S304x10000) (fun _ => 0) (fun a => (Pipeline.Clip.of (cc0_transform_3 i a) (S304x10000.size a) (S10000x10000.size a)).extent (S304x10000.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S304x10000.size a < S10000x10000.size a
  hwx0_4 : ∀ i : grid0.Coords, EltTy.bits .f32 = 32 ∨ (Rect.unit (s := S10000x10000) (fun a => cc0_transform_4 i a * S304x10000.size a) (fun a => (Pipeline.Clip.of (cc0_transform_4 i a) (S304x10000.size a) (S10000x10000.size a)).extent (S304x10000.size a)) fun a => Pipeline.Clip.inb (Pipeline.Clip.ok_of (hstart0_4 i a))).WholeWords (EltTy.packing .f32)
  hwxs0_4 : ∀ i : grid0.Coords, EltTy.bits .f32 = 32 ∨ (Rect.unit (s := S304x10000) (fun _ => 0) (fun a => (Pipeline.Clip.of (cc0_transform_4 i a) (S304x10000.size a) (S10000x10000.size a)).extent (S304x10000.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S304x128.size a < S10000x128.size a
  hwx0_5 : ∀ i : grid0.Coords, EltTy.bits .f32 = 32 ∨ (Rect.unit (s := S10000x128) (fun a => cc0_transform_5 i a * S304x128.size a) (fun a => (Pipeline.Clip.of (cc0_transform_5 i a) (S304x128.size a) (S10000x128.size a)).extent (S304x128.size a)) fun a => Pipeline.Clip.inb (Pipeline.Clip.ok_of (hstart0_5 i a))).WholeWords (EltTy.packing .f32)
  hwxs0_5 : ∀ i : grid0.Coords, EltTy.bits .f32 = 32 ∨ (Rect.unit (s := S304x128) (fun _ => 0) (fun a => (Pipeline.Clip.of (cc0_transform_5 i a) (S304x128.size a) (S10000x128.size a)).extent (S304x128.size a)) fun a => (Nat.zero_add _).trans_le (Pipeline.Clip.extent_le (Pipeline.Clip.ok_of (hstart0_5 i a)))).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S304x128.size a < S10000x128.size a
  hwx0_6 : ∀ i : grid0.Coords, EltTy.bits .f32 = 32 ∨ (Rect.unit (s := S10000x128) (fun a => cc0_transform_6 i a * S304x128.size a) (fun a => (Pipeline.Clip.of (cc0_transform_6 i a) (S304x128.size a) (S10000x128.size a)).extent (S304x128.size a)) fun a => Pipeline.Clip.inb (Pipeline.Clip.ok_of (hstart0_6 i a))).WholeWords (EltTy.packing .f32)
  hwxs0_6 : ∀ i : grid0.Coords, EltTy.bits .f32 = 32 ∨ (Rect.unit (s := S304x128) (fun _ => 0) (fun a => (Pipeline.Clip.of (cc0_transform_6 i a) (S304x128.size a) (S10000x128.size a)).extent (S304x128.size a)) fun a => (Nat.zero_add _).trans_le (Pipeline.Clip.extent_le (Pipeline.Clip.ok_of (hstart0_6 i a)))).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S304x10000_S10000x128_S304x128_1_0_0_1_n_n : DotDims S304x10000 S10000x128 S304x128 where
  lhsContracting := [1]
  rhsContracting := [0]
  lhsNonContracting := [0]
  rhsNonContracting := [1]
  lhsBatch := []
  rhsBatch := []
  wf := dot_S304x10000_S10000x128_S304x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_arg1) S304x10000.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_arg2) S304x10000.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v0_0) S304x128.size cc0_transform_5 reads0_5 true false 2 stage0_5 sem0_5
    hrank0 hreads0_5 hstart0_5 nbuf0_5 (Memref.isWhole_whole _) hwx0_5 hwxs0_5 hstage0_5

abbrev win0_6 : Pipeline.Window sig grid0 :=
  Pipeline.Window.ofSpecClip (Memref.whole main_v0_1) S304x128.size cc0_transform_6 reads0_6 true false 2 stage0_6 sem0_6
    hrank0 hreads0_6 hstart0_6 nbuf0_6 (Memref.isWhole_whole _) hwx0_6 hwxs0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S128x128, .f32⟩
  | .hbm, ⟨5, _⟩ => ⟨S10000x128, .f32⟩
  | .hbm, ⟨6, _⟩ => ⟨S_, .f32⟩
  | .hbm, ⟨7, _⟩ => ⟨S10000x128, .f32⟩
  | .hbm, ⟨8, _⟩ => ⟨S10000x128, .i1⟩
  | .hbm, ⟨9, _⟩ => ⟨S_, .f32⟩
  | .hbm, ⟨10, _⟩ => ⟨S10000x128, .f32⟩
  | .hbm, ⟨11, _⟩ => ⟨S10000x128, .i1⟩
  | .hbm, ⟨12, _⟩ => ⟨S_, .f32⟩
  | .hbm, ⟨13, _⟩ => ⟨S_, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S_, .f32⟩
  | .hbm, ⟨18, _⟩ => ⟨S10000x128, .f32⟩
  | .hbm, ⟨19, _⟩ => ⟨S10000x128, .f32⟩
  | .hbm, ⟨20, _⟩ => ⟨S10000x128, .f32⟩
  | .hbm, ⟨21, _⟩ => ⟨S10000x128, .f32⟩
  | .hbm, ⟨22, _⟩ => ⟨S_, .f32⟩
  | .hbm, ⟨23, _⟩ => ⟨S10000x128, .f32⟩
  | .hbm, ⟨24, _⟩ => ⟨S10000x128, .f32⟩
  | .hbm, ⟨25, _⟩ => ⟨S_, .f32⟩
  | .hbm, ⟨26, _⟩ => ⟨S10000x128, .f32⟩
  | .hbm, ⟨27, _⟩ => ⟨S10000x128, .f32⟩
  | .hbm, ⟨28, _⟩ => ⟨S10000x128, .f32⟩
  | .hbm, ⟨29, _⟩ => ⟨S10000x128, .f32⟩
  | .hbm, ⟨30, _⟩ => ⟨S10000x128, .f32⟩
  | .hbm, ⟨31, _⟩ => ⟨S10000x128, .f32⟩
  | .hbm, ⟨32, _⟩ => ⟨S10000x128, .f32⟩
  | .hbm, ⟨33, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_cst_0 : Ref sig .tc := ⟨.hbm, 9, rfl⟩
abbrev main_call0_v2 : Ref sig .tc := ⟨.hbm, 10, rfl⟩
abbrev main_call0_v3 : Ref sig .tc := ⟨.hbm, 11, rfl⟩
abbrev main_call0_cst_1 : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_v4 : Ref sig .tc := ⟨.hbm, 15, rfl⟩
abbrev main_call0_v5 : Ref sig .tc := ⟨.hbm, 16, rfl⟩
abbrev main_call0_cst_2 : Ref sig .tc := ⟨.hbm, 17, rfl⟩
abbrev main_call0_v6 : Ref sig .tc := ⟨.hbm, 18, rfl⟩
abbrev main_call0_v7 : Ref sig .tc := ⟨.hbm, 19, rfl⟩
abbrev main_v1 : Ref sig .tc := ⟨.hbm, 20, rfl⟩
abbrev main_v2 : Ref sig .tc := ⟨.hbm, 21, rfl⟩
abbrev main_call1_cst : Ref sig .tc := ⟨.hbm, 22, rfl⟩
abbrev main_call1_v0 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.BodyRunK.lean ====
/-
  The kernel body's two runs, at any float instance (the word-level kernel's program).

  The body branches once, on whether the grid coordinate is zero. At the first point it loads the feature block and
  the two weight blocks, computes the two hidden matrices and stores each whole into its scratch buffer; then, as at
  every point, it loads the two staged adjacency blocks and the two scratch matrices and stores the two products
  whole into the two output buffers. Every load and store goes through the whole-buffer rectangle at offset zero, so
  a load reads the buffer's contents and a store leaves its payload: each buffer the body stores into ends at ONE
  payload of what it loaded — the skeleton's payload terms for the two hidden matrices and the two products.
-/
import proofs.«133317_g24283745092303_cont_9to1_376_8_alg».proof.Proof.Gen.Kernel.Frame
import proofs.«133317_g24283745092303_cont_9to1_376_8_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's one branch: taken exactly when the grid coordinate is zero. -/
abbrev atFirst (i : grid0.Coords) : Prop :=
  (Scalar.cmpi .ne (Scalar.extui (Scalar.cmpi .eq (BitVec.ofNat 32 (i 0).val) 0#32)) 0#32) = 1#1

theorem atFirst_iff : ∀ t : Fin cfg0.N, atFirst (grid0.coords t) ↔ t.val = 0 :=
  (by decide +kernel : ∀ t : Fin grid0.N, atFirst (grid0.coords t) ↔ t.val = 0)

set_option maxHeartbeats 1000000 in
/-- At a later point the body reads its two adjacency blocks and the two hidden matrices kept in scratch, and stores
    the two products; everything it read is handed back as it was. -/
noncomputable def runLater (c : Dev nD) (i : grid0.Coords)
    (a1 : Memref sig .tc .vmem S10000x128 .f32) (h1 : a1.IsWhole) (a2 : Memref sig .tc .vmem S128x128 .f32) (h2 : a2.IsWhole)
    (a3 : Memref sig .tc .vmem S128x128 .f32) (h3 : a3.IsWhole) (a4 : Memref sig .tc .vmem S304x10000 .f32) (h4 : a4.IsWhole)
    (a5 : Memref sig .tc .vmem S304x10000 .f32) (h5 : a5.IsWhole) (a6 : Memref sig .tc .vmem S304x128 .f32) (h6 : a6.IsWhole)
    (a7 : Memref sig .tc .vmem S304x128 .f32) (h7 : a7.IsWhole) (a8 : Memref sig .tc .vmem S10000x128 .bf16) (h8 : a8.IsWhole)
    (a9 : Memref sig .tc .vmem S10000x128 .bf16) (h9 : a9.IsWhole) (hc : ¬atFirst i)
    (x1 : Vec F S10000x128 .f32) (x2 x3 : Vec F S128x128 .f32) (x4 x5 : Vec F S304x10000 .f32) (y8 y9 : Vec F S10000x128 .bf16) :
    Σ' (L6 : List (View.Piece (Elt F) S304x128 .f32)), { L7 : List (View.Piece (Elt F) S304x128 .f32) //
      ∀ (E : Set ℕ) (K : PUnit → sProp 𝕄),
        iprop(owns (c : Thread nD τ) a1 fullShare x1 ∗ owns (c : Thread nD τ) a2 fullShare x2 ∗ owns (c : Thread nD τ) a3 fullShare x3
            ∗ owns (c : Thread nD τ) a4 fullShare x4 ∗ owns (c : Thread nD τ) a5 fullShare x5
            ∗ (∃ d, owns (c : Thread nD τ) a6 fullShare d) ∗ (∃ d, owns (c : Thread nD τ) a7 fullShare d)
            ∗ owns (c : Thread nD τ) a8 fullShare y8 ∗ owns (c : Thread nD τ) a9 fullShare y9
            ∗ (iprop(owns (c : Thread nD τ) a1 fullShare x1 ∗ owns (c : Thread nD τ) a2 fullShare x2 ∗ owns (c : Thread nD τ) a3 fullShare x3
                ∗ owns (c : Thread nD τ) a4 fullShare x4 ∗ owns (c : Thread nD τ) a5 fullShare x5
                ∗ (∃ f, a6.view.loc (c : Thread nD τ) ↦[a6.view.set]{fullShare} a6.view.writes (Elt F) f L6)
                ∗ (∃ f, a7.view.loc (c : Thread nD τ) ↦[a7.view.set]{fullShare} a7.view.writes (Elt F) f L7)
                ∗ owns (c : Thread nD τ) a8 fullShare y8 ∗ owns (c : Thread nD τ) a9 fullShare y9) -∗ K ⟨⟩))
          ⊢ wp frame (wpE (defs₀ (F := F)) Variants.none c none) E (cc0__body i a1 h1 a2 h2 a3 h3 a4 h4 a5 h5 a6 h6 a7 h7 a8 h8 a9 h9) K } := by
  refine ⟨?_, ?_, fun E K => ?run⟩
  case run =>
    simp only [cc0__body_eq_skeleton]; unfold cc0__body_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
    obtain rfl := h1.eq_unread hf1; obtain rfl := h2.eq_unread hf2; obtain rfl := h3.eq_unread hf3
    obtain rfl := h4.eq_unread hf4; obtain rfl := h5.eq_unread hf5; obtain rfl := h8.eq_unread hf8; obtain rfl := h9.eq_unread hf9
    sl_exec (disch := exact hc)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; iexact H6
    isplitl [H7]
    · iexists _; iexact H7
    isplitl [H8]
    · iexists _; isplitr; · ipureintro; exact h8.read_unread _
      iexact H8
    · iexists _; isplitr; · ipureintro; exact h9.read_unread _
      iexact H9

set_option maxHeartbeats 2000000 in
/-- At the first point the body first fills the two scratch matrices from the features and the weights, then does what
    it does at every point, reading back what it has just stored. -/
noncomputable def runFirst (c : Dev nD) (i : grid0.Coords)
    (a1 : Memref sig .tc .vmem S10000x128 .f32) (h1 : a1.IsWhole) (a2 : Memref sig .tc .vmem S128x128 .f32) (h2 : a2.IsWhole)
    (a3 : Memref sig .tc .vmem S128x128 .f32) (h3 : a3.IsWhole) (a4 : Memref sig .tc .vmem S304x10000 .f32) (h4 : a4.IsWhole)
    (a5 : Memref sig .tc .vmem S304x10000 .f32) (h5 : a5.IsWhole) (a6 : Memref sig .tc .vmem S304x128 .f32) (h6 : a6.IsWhole)
    (a7 : Memref sig .tc .vmem S304x128 .f32) (h7 : a7.IsWhole) (a8 : Memref sig .tc .vmem S10000x128 .bf16) (h8 : a8.IsWhole)
    (a9 : Memref sig .tc .vmem S10000x128 .bf16) (h9 : a9.IsWhole) (hc : atFirst i)
    (x1 : Vec F S10000x128 .f32) (x2 x3 : Vec F S128x128 .f32) (x4 x5 : Vec F S304x10000 .f32) :
    Σ' (L6 : List (View.Piece (Elt F) S304x128 .f32)) (L7 : List (View.Piece (Elt F) S304x128 .f32))
       (L8 : List (View.Piece (Elt F) S10000x128 .bf16)), { L9 : List (View.Piece (Elt F) S10000x128 .bf16) //
      ∀ (E : Set ℕ) (K : PUnit → sProp 𝕄),
        iprop(owns (c : Thread nD τ) a1 fullShare x1 ∗ owns (c : Thread nD τ) a2 fullShare x2 ∗ owns (c : Thread nD τ) a3 fullShare x3
            ∗ owns (c : Thread nD τ) a4 fullShare x4 ∗ owns (c : Thread nD τ) a5 fullShare x5
            ∗ (∃ d, owns (c : Thread nD τ) a6 fullShare d) ∗ (∃ d, owns (c : Thread nD τ) a7 fullShare d)
            ∗ (∃ d, owns (c : Thread nD τ) a8 fullShare d) ∗ (∃ d, owns (c : Thread nD τ) a9 fullShare d)
            ∗ (iprop(owns (c : Thread nD τ) a1 fullShare x1 ∗ owns (c : Thread nD τ) a2 fullShare x2 ∗ owns (c : Thread nD τ) a3 fullShare x3
                ∗ owns (c : Thread nD τ) a4 fullShare x4 ∗ owns (c : Thread nD τ) a5 fullShare x5
                ∗ (∃ f, a6.view.loc (c : Thread nD τ) ↦[a6.view.set]{fullShare} a6.view.writes (Elt F) f L6)
                ∗ (∃ f, a7.view.loc (c : Thread nD τ) ↦[a7.view.set]{fullShare} a7.view.writes (Elt F) f L7)
                ∗ (∃ f, a8.view.loc (c : Thread nD τ) ↦[a8.view.set]{fullShare} a8.view.writes (Elt F) f L8)
                ∗ (∃ f, a9.view.loc (c : Thread nD τ) ↦[a9.view.set]{fullShare} a9.view.writes (Elt F) f L9)) -∗ K ⟨⟩))
          ⊢ wp frame (wpE (defs₀ (F := F)) Variants.none c none) E (cc0__body i a1 h1 a2 h2 a3 h3 a4 h4 a5 h5 a6 h6 a7 h7 a8 h8 a9 h9) K } := by
  refine ⟨?_, ?_, ?_, ?_, fun E K => ?run⟩
  case run =>
    simp only [cc0__body_eq_skeleton]; unfold cc0__body_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
    obtain rfl := h1.eq_unread hf1; obtain rfl := h2.eq_unread hf2; obtain rfl := h3.eq_unread hf3
    obtain rfl := h4.eq_unread hf4; obtain rfl := h5.eq_unread hf5
    sl_exec (disch := exact hc)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; iexact H6
    isplitl [H7]
    · iexists _; iexact H7
    isplitl [H8]
    · iexists _; iexact H8
    · iexists _; iexact H9

theorem zeros2 : (![0, 0] : Fin 2 → Nat) = fun _ => 0 := funext fun a => by fin_cases a <;> rfl

/-! What the stores leave, in closed form: each buffer the body stores into ends at one payload of what it loaded. -/

section Later

variable (c : Dev nD) (i : grid0.Coords)
    (a1 : Memref sig .tc .vmem S10000x128 .f32) (h1 : a1.IsWhole) (a2 : Memref sig .tc .vmem S128x128 .f32) (h2 : a2.IsWhole)
    (a3 : Memref sig .tc .vmem S128x128 .f32) (h3 : a3.IsWhole) (a4 : Memref sig .tc .vmem S304x10000 .f32) (h4 : a4.IsWhole)
    (a5 : Memref sig .tc .vmem S304x10000 .f32) (h5 : a5.IsWhole) (a6 : Memref sig .tc .vmem S304x128 .f32) (h6 : a6.IsWhole)
    (a7 : Memref sig .tc .vmem S304x128 .f32) (h7 : a7.IsWhole) (a8 : Memref sig .tc .vmem S10000x128 .bf16) (h8 : a8.IsWhole)
    (a9 : Memref sig .tc .vmem S10000x128 .bf16) (h9 : a9.IsWhole) (hc : ¬atFirst i)
    (x1 : Vec F S10000x128 .f32) (x2 x3 : Vec F S128x128 .f32) (x4 x5 : Vec F S304x10000 .f32) (y8 y9 : Vec F S10000x128 .bf16)

theorem later_cover6 (y : S304x128.Idx) :
    ∃ pc ∈ (runLater c i a1 h1 a2 h2 a3 h3 a4 h4 a5 h5 a6 h6 a7 h7 a8 h8 a9 h9 hc x1 x2 x3 x4 x5 y8 y9).1, y ∈ pc.1.set :=
  View.cover_of_tiledL _ S304x128.size (by sl_kernel_rfl) y

theorem later_out6 {sig' : RefSig} {κ' : Kind} {sp' : Space} (v : View sig' κ' sp' S304x128 .f32) (f : v.ty.Contents (Elt F)) :
    v.read (Elt F) (v.writes (Elt F) f (runLater c i a1 h1 a2 h2 a3 h3 a4 h4 a5 h5 a6 h6 a7 h7 a8 h8 a9 h9 hc x1 x2 x3 x4 x5 y8 y9).1) = k0_pay6 x4 y8 := by
  rw [View.read_writes_eq_canon _ _ _ (later_cover6 c i a1 h1 a2 h2 a3 h3 a4 h4 a5 h5 a6 h6 a7 h7 a8 h8 a9 h9 hc x1 x2 x3 x4 x5 y8 y9)]
  unfold runLater; dsimp only; sl_unfold_words
  rw [View.canon_unit_zero zeros2]
  simp only [View.readAt_eq_ld, h1.read_unread, h2.read_unread, h3.read_unread, h4.read_unread, h5.read_unread, h8.read_unread, h9.read_unread,
    View.ld_unit_zero (S := S304x10000) zeros2, View.ld_unit_zero (S := S10000x128) zeros2, View.ld_unit_zero (S := S128x128) zeros2,
    View.readCov_unit_zero (S := S10000x128) a8.view zeros2, View.readCov_unit_zero (S := S10000x128) a9.view zeros2]

theorem later_cover7 (y : S304x128.Idx) :
    ∃ pc ∈ (runLater c i a1 h1 a2 h2 a3 h3 a4 h4 a5 h5 a6 h6 a7 h7 a8 h8 a9 h9 hc x1 x2 x3 x4 x5 y8 y9).2.1, y ∈ pc.1.set :=
  View.cover_of_tiledL _ S304x128.size (by sl_kernel_rfl) y

theorem later_out7 {sig' : RefSig} {κ' : Kind} {sp' : Space} (v : View sig' κ' sp' S304x128 .f32) (f : v.ty.Contents (Elt F)) :
    v.read (Elt F) (v.writes (Elt F) f (runLater c i a1 h1 a2 h2 a3 h3 a4 h4 a5 h5 a6 h6 a7 h7 a8 h8 a9 h9 hc x1 x2 x3 x4 x5 y8 y9).2.1) = k0_pay7 x5 y9 := by
  rw [View.read_writes_eq_canon _ _ _ (later_cover7 c i a1 h1 a2 h2 a3 h3 a4 h4 a5 h5 a6 h6 a7 h7 a8 h8 a9 h9 hc x1 x2 x3 x4 x5 y8 y9)]
  unfold runLater; dsimp only; sl_unfold_words
  rw [View.canon_unit_zero zeros2]
  simp only [View.readAt_eq_ld, h1.read_unread, h2.read_unread, h3.read_unread, h4.read_unread, h5.read_unread, h8.read_unread, h9.read_unread,
    View.ld_unit_zero (S := S304x10000) zeros2, View.ld_unit_zero (S := S10000x128) zeros2, View.ld_unit_zero (S := S128x128) zeros2,
    View.readCov_unit_zero (S := S10000x128) a8.view zeros2, View.readCov_unit_zero (S := S10000x128) a9.view zeros2]

end Later

section First

variable (c : Dev nD) (i : grid0.Coords)
    (a1 : Memref sig .tc .vmem S10000x128 .f32) (h1 : a1.IsWhole) (a2 : Memref sig .tc .vmem S128x128 .f32) (h2 : a2.IsWhole)
    (a3 : Memref sig .tc .vmem S128x128 .f32) (h3 : a3.IsWhole) (a4 : Memref sig .tc .vmem S304x10000 .f32) (h4 : a4.IsWhole)
    (a5 : Memref sig .tc .vmem S304x10000 .f32) (h5 : a5.IsWhole) (a6 : Memref sig .tc .vmem S304x128 .f32) (h6 : a6.IsWhole)
    (a7 : Memref sig .tc .vmem S304x128 .f32) (h7 : a7.IsWhole) (a8 : Memref sig .tc .vmem S10000x128 .bf16) (h8 : a8.IsWhole)
    (a9 : Memref sig .tc .vmem S10000x128 .bf16) (h9 : a9.IsWhole) (hc : atFirst i)
    (x1 : Vec F S10000x128 .f32) (x2 x3 : Vec F S128x128 .f32) (x4 x5 : Vec F S304x10000 .f32)

theorem first_cover6 (y : S304x128.Idx) :
    ∃ pc ∈ (runFirst c i a1 h1 a2 h2 a3 h3 a4 h4 a5 h5 a6 h6 a7 h7 a8 h8 a9 h9 hc x1 x2 x3 x4 x5).1, y ∈ pc.1.set :=
  View.cover_of_tiledL _ S304x128.size (by sl_kernel_rfl) y

theorem first_out6 {sig' : RefSig} {κ' : Kind} {sp' : Space} (v : View sig' κ' sp' S304x128 .f32) (f : v.ty.Contents (Elt F)) :
    v.read (Elt F) (v.writes (Elt F) f (runFirst c i a1 h1 a2 h2 a3 h3 a4 h4 a5 h5 a6 h6 a7 h7 a8 h8 a9 h9 hc x1 x2 x3 x4 x5).1) = k0_pay6 x4 (k0_pay4 x1 x2 x3) := by
  rw [View.read_writes_eq_canon _ _ _ (first_cover6 c i a1 h1 a2 h2 a3 h3 a4 h4 a5 h5 a6 h6 a7 h7 a8 h8 a9 h9 hc x1 x2 x3 x4 x5)]
  unfold runFirst; dsimp only; sl_unfold_words
  rw [View.canon_unit_zero zeros2]
  simp only [View.readAt_eq_ld, h1.read_unread, h2.read_unread, h3.read_unread, h4.read_unread, h5.read_unread, h8.read_unread, h9.read_unread,
    View.ld_unit_zero (S := S304x10000) zeros2, View.ld_unit_zero (S := S10000x128) zeros2, View.ld_unit_zero (S := S128x128) zeros2,
    View.readCov_unit_zero (S := S10000x128) a8.view zeros2, View.readCov_unit_zero (S := S10000x128) a9.view zeros2]

theorem first_cover7 (y : S304x128.Idx) :
    ∃ pc ∈ (runFirst c i a1 h1 a2 h2 a3 h3 a4 h4 a5 h5 a6 h6 a7 h7 a8 h8 a9 h9 hc x1 x2 x3 x4 x5).2.1, y ∈ pc.1.set :=
  View.cover_of_tiledL _ S304x128.size (by sl_kernel_rfl) y

theorem first_out7 {sig' : RefSig} {κ' : Kind} {sp' : Space} (v : View sig' κ' sp' S304x128 .f32) (f : v.ty.Contents (Elt F)) :
    v.read (Elt F) (v.writes (Elt F) f (runFirst c i a1 h1 a2 h2 a3 h3 a4 h4 a5 h5 a6 h6 a7 h7 a8 h8 a9 h9 hc x1 x2 x3 x4 x5).2.1) = k0_pay7 x5 (k0_pay5 x1 x3) := by
  rw [View.read_writes_eq_canon _ _ _ (first_cover7 c i a1 h1 a2 h2 a3 h3 a4 h4 a5 h5 a6 h6 a7 h7 a8 h8 a9 h9 hc x1 x2 x3 x4 x5)]
  unfold runFirst; dsimp only; sl_unfold_words
  rw [View.canon_unit_zero zeros2]
  simp only [View.readAt_eq_ld, h1.read_unread, h2.read_unread, h3.read_unread, h4.read_unread, h5.read_unread, h8.read_unread, h9.read_unread,
    View.ld_unit_zero (S := S304x10000) zeros2, View.ld_unit_zero (S := S10000x128) zeros2, View.ld_unit_zero (S := S128x128) zeros2,
    View.readCov_unit_zero (S := S10000x128) a8.view zeros2, View.readCov_unit_zero (S := S10000x128) a9.view zeros2]

theorem first_cover8 (y : S10000x128.Idx) :
    ∃ pc ∈ (runFirst c i a1 h1 a2 h2 a3 h3 a4 h4 a5 h5 a6 h6 a7 h7 a8 h8 a9 h9 hc x1 x2 x3 x4 x5).2.2.1, y ∈ pc.1.set :=
  View.cover_of_tiledL _ S10000x128.size (by sl_kernel_rfl) y

theorem first_out8 {sig' : RefSig} {κ' : Kind} {sp' : Space} (v : View sig' κ' sp' S10000x128 .bf16) (f : v.ty.Contents (Elt F)) :
    v.read (Elt F) (v.writes (Elt F) f (runFirst c i a1 h1 a2 h2 a3 h3 a4 h4 a5 h5 a6 h6 a7 h7 a8 h8 a9 h9 hc x1 x2 x3 x4 x5).2.2.1) = k0_pay4 x1 x2 x3 := by
  rw [View.read_writes_eq_canon _ _ _ (first_cover8 c i a1 h1 a2 h2 a3 h3 a4 h4 a5 h5 a6 h6 a7 h7 a8 h8 a9 h9 hc x1 x2 x3 x4 x5)]
  unfold runFirst; dsimp only; sl_unfold_words
  rw [View.canon_unit_zero zeros2]
  simp only [View.readAt_eq_ld, h1.read_unread, h2.read_unread, h3.read_unread, h4.read_unread, h5.read_unread, h8.read_unread, h9.read_unread,
    View.ld_unit_zero (S := S304x10000) zeros2, View.ld_unit_zero (S := S10000x128) zeros2, View.ld_unit_zero (S := S128x128) zeros2,
    View.readCov_unit_zero (S := S10000x128) a8.view zeros2, View.readCov_unit_zero (S := S10000x128) a9.view zeros2]

theorem first_cover9 (y : S10000x128.Idx) :
    ∃ pc ∈ (runFirst c i a1 h1 a2 h2 a3 h3 a4 h4 a5 h5 a6 h6 a7 h7 a8 h8 a9 h9 hc x1 x2 x3 x4 x5).2.2.2.1, y ∈ pc.1.set :=
  View.cover_of_tiledL _ S10000x128.size (by sl_kernel_rfl) y

theorem first_out9 {sig' : RefSig} {κ' : Kind} {sp' : Space} (v : View sig' κ' sp' S10000x128 .bf16) (f : v.ty.Contents (Elt F)) :
    v.read (Elt F) (v.writes (Elt F) f (runFirst c i a1 h1 a2 h2 a3 h3 a4 h4 a5 h5 a6 h6 a7 h7 a8 h8 a9 h9 hc x1 x2 x3 x4 x5).2.2.2.1) = k0_pay5 x1 x3 := by
  rw [View.read_writes_eq_canon _ _ _ (first_cover9 c i a1 h1 a2 h2 a3 h3 a4 h4 a5 h5 a6 h6 a7 h7 a8 h8 a9 h9 hc x1 x2 x3 x4 x5)]
  unfold runFirst; dsimp only; sl_unfold_words
  rw [View.canon_unit_zero zeros2]
  simp only [View.readAt_eq_ld, h1.read_unread, h2.read_unread, h3.read_unread, h4.read_unread, h5.read_unread, h8.read_unread, h9.read_unread,
    View.ld_unit_zero (S := S304x10000) zeros2, View.ld_unit_zero (S := S10000x128) zeros2, View.ld_unit_zero (S := S128x128) zeros2,
    View.readCov_unit_zero (S := S10000x128) a8.view zeros2, View.readCov_unit_zero (S := S10000x128) a9.view zeros2]

end First

end Cert.Kernel.Body

end
-- ==== Proof.FrameK.lean ====
/-
  The word-level kernel's frame: it runs to its end, faults nowhere, and leaves its five argument arrays alone.

  Nothing the body computes decides whether it faults: its one branch is on the grid coordinate, and every load and
  store is through a whole buffer the pipeline or the region holds. So the run is stated with every staging buffer and
  both scratch matrices at ANY contents before and after each point, and the argument arrays — inputs the pipeline
  only reads — end at their contents at the region's entry.
-/
import proofs.«133317_g24283745092303_cont_9to1_376_8_alg».proof.Proof.BodyRunK

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two scratch matrices, as whole buffers. -/
abbrev scr0 : Memref sig .tc .vmem S10000x128 .bf16 := Memref.whole cc0_scratch0
abbrev scr1 : Memref sig .tc .vmem S10000x128 .bf16 := Memref.whole cc0_scratch1

/-- Between points the region keeps the two scratch matrices, each at some contents, and the generator register. -/
theorem scratch_any (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-- Proof data that names nothing the body computes: that the program runs to its end without a fault and leaves
    its argument arrays alone needs no value, only that every buffer the body touches is held whole. -/
def datsAny (_ : Fin 1) (c : Dev nD) : Dat τ (Elt F) Unit ℕ (UR sig nD τ) ℕ cfg0 c where
  A w := V m c (Pipeline.arrRef spec0 w)
  after w t := fun _ => Classical.arbitrary _
  Φ _ := Pipeline.ΦA spec0 c
  q _ := fullShare
  owed _ := 0

set_option maxHeartbeats 4000000 in
/-- At every point, from every staging buffer and both scratch matrices at ANY contents, the body runs and hands
    them all back at some contents. -/
theorem body_any (c : Dev nD) :
    BodyObligationLoose (datsAny (F := F) m 0 c) (defs₀ (F := F)) Variants.none () Set.univ (fun _ => true) := fun t => by
  simp only [bigSep_W0]
  rw [show (datsAny m 0 c).Φ t.succ = Pipeline.ΦA spec0 c from rfl, show (datsAny m 0 c).Φ t.castSucc = Pipeline.ΦA spec0 c from rfl,
    show (datsAny m 0 c).owesAt () t.succ = (datsAny m 0 c).owesAt () t.castSucc from rfl, scratch_any]
  show _ ⊢ wp frame (wpE (defs₀ (F := F)) Variants.none c none) Set.univ (bodyAt0 t) _
  by_cases hz : t.val = 0
  · iintro ⟨⟨⟨HS0, HS1⟩, Hg⟩, Ho, ⟨%X0, H0⟩, ⟨%X1, H1⟩, ⟨%X2, H2⟩, ⟨%X3, H3⟩, ⟨%X4, H4⟩, H5, H6⟩
    iapply ((runFirst c (grid0.coords t) _ _ _ _ _ _ _ _ _ _ _ _ _ _ _ _ _ _ ((atFirst_iff t).mpr hz) X0 X1 X2 X3 X4).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, ⟨%e5, H5⟩, ⟨%e6, H6⟩, ⟨%e8, HS0⟩, ⟨%e9, HS1⟩⟩
    isplitl [HS0 HS1 Hg]
    · isplitl [HS0 HS1]
      · isplitl [HS0]
        · iexists _; unfold owns; iexists _; isplitr
          swap; · iexact HS0
          ipureintro; rfl
        · iexists _; unfold owns; iexists _; isplitr
          swap; · iexact HS1
          ipureintro; rfl
      iexact Hg
    isplitl [Ho]; · iexact Ho
    isplitl [H0]; · iexists _; iexact H0
    isplitl [H1]; · iexists _; iexact H1
    isplitl [H2]; · iexists _; iexact H2
    isplitl [H3]; · iexists _; iexact H3
    isplitl [H4]; · iexists _; iexact H4
    isplitl [H5]
    · iexists _; unfold owns; iexists _; isplitr
      swap; · iexact H5
      ipureintro; rfl
    · iexists _; unfold owns; iexists _; isplitr
      swap; · iexact H6
      ipureintro; rfl
  · iintro ⟨⟨⟨⟨%Y8, HS0⟩, ⟨%Y9, HS1⟩⟩, Hg⟩, Ho, ⟨%X0, H0⟩, ⟨%X1, H1⟩, ⟨%X2, H2⟩, ⟨%X3, H3⟩, ⟨%X4, H4⟩, H5, H6⟩
    iapply ((runLater c (grid0.coords t) _ _ _ _ _ _ _ _ _ _ _ _ _ _ _ _ _ _ (fun h => hz ((atFirst_iff t).mp h)) X0 X1 X2 X3 X4 Y8 Y9).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, ⟨%e5, H5⟩, ⟨%e6, H6⟩, HS0, HS1⟩
    isplitl [HS0 HS1 Hg]
    · isplitl [HS0 HS1]
      · isplitl [HS0]
        · iexists _; iexact HS0
        · iexists _; iexact HS1
      iexact Hg
    isplitl [Ho]; · iexact Ho
    isplitl [H0]; · iexists _; iexact H0
    isplitl [H1]; · iexists _; iexact H1
    isplitl [H2]; · iexists _; iexact H2
    isplitl [H3]; · iexists _; iexact H3
    isplitl [H4]; · iexists _; iexact H4
    isplitl [H5]
    · iexists _; unfold owns; iexists _; isplitr
      swap; · iexact H5
      ipureintro; rfl
    · iexists _; unfold owns; iexists _; isplitr
      swap; · iexact H6
      ipureintro; rfl

set_option backward.isDefEq.respectTransparency.types false in
/-- Every weakly fair execution of the program terminates without a fault, each input array of the region ends at
    what it held at the region's entry, and nothing outside the region's arrays changes. -/
theorem run_any : θ_run defs (onTc (τ := τ) (main (F := F))) (s₀ m ρ)
    (RDat.FramePost cfg0 (fun c => (datsAny m 0 c).toRForget (fun _ => true)) (V m)) :=
  Pipeline.RDat.θ_run_frame cfgs (0 : Fin 1) launch0 defs₀ Variants.none (fun c => (datsAny m 0 c).toRForget (fun _ => true)) m ρ main
    (hbody := fun c => (body_any m c).toRForget) (hshare := fun c => (datsAny m 0 c).share_full fun _ => rfl)
    (howed := fun _ _ => rfl) (V := V m) (hmain := hmain m Variants.none) (hA := fun _ _ => rfl) (hΦ := fun _ _ => rfl)

/-- The program runs to its end, faults nowhere, and its five argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    have hin : ∀ w : Fin cfg0.W, (cfg0.win w).isOut = false →
        r.2.mem ((cfg0.spec w).arr.view.loc (c.tc : Thread nD τ)) = V m c (Pipeline.arrRef spec0 w) := fun w hw => by
      have := (h c).1 w
      rw [RDat.ArrAt_in _ w hw] at this
      exact this
    ⟨hin 0 rfl, hin 3 rfl, hin 4 rfl, hin 1 rfl, hin 2 rfl⟩) (run_any m ρ)

end Cert.Kernel.Body

end
-- ==== Proof.BodyRunI.lean ====
/-
  The kernel body's two runs, at any float instance (the idealized kernel's program).

  The body branches once, on whether the grid coordinate is zero. At the first point it loads the feature block and
  the two weight blocks, computes the two hidden matrices and stores each whole into its scratch buffer; then, as at
  every point, it loads the two staged adjacency blocks and the two scratch matrices and stores the two products
  whole into the two output buffers. Every load and store goes through the whole-buffer rectangle at offset zero, so
  a load reads the buffer's contents and a store leaves its payload: each buffer the body stores into ends at ONE
  payload of what it loaded — the skeleton's payload terms for the two hidden matrices and the two products.
-/
import proofs.«133317_g24283745092303_cont_9to1_376_8_alg».proof.Proof.Gen.KernelIdeal.Frame
import proofs.«133317_g24283745092303_cont_9to1_376_8_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's one branch: taken exactly when the grid coordinate is zero. -/
abbrev atFirst (i : grid0.Coords) : Prop :=
  (Scalar.cmpi .ne (Scalar.extui (Scalar.cmpi .eq (BitVec.ofNat 32 (i 0).val) 0#32)) 0#32) = 1#1

theorem atFirst_iff : ∀ t : Fin cfg0.N, atFirst (grid0.coords t) ↔ t.val = 0 :=
  (by decide +kernel : ∀ t : Fin grid0.N, atFirst (grid0.coords t) ↔ t.val = 0)

set_option maxHeartbeats 1000000 in
/-- At a later point the body reads its two adjacency blocks and the two hidden matrices kept in scratch, and stores
    the two products; everything it read is handed back as it was. -/
noncomputable def runLater (c : Dev nD) (i : grid0.Coords)
    (a1 : Memref sig .tc .vmem S10000x128 .f32) (h1 : a1.IsWhole) (a2 : Memref sig .tc .vmem S128x128 .f32) (h2 : a2.IsWhole)
    (a3 : Memref sig .tc .vmem S128x128 .f32) (h3 : a3.IsWhole) (a4 : Memref sig .tc .vmem S304x10000 .f32) (h4 : a4.IsWhole)
    (a5 : Memref sig .tc .vmem S304x10000 .f32) (h5 : a5.IsWhole) (a6 : Memref sig .tc .vmem S304x128 .f32) (h6 : a6.IsWhole)
    (a7 : Memref sig .tc .vmem S304x128 .f32) (h7 : a7.IsWhole) (a8 : Memref sig .tc .vmem S10000x128 .bf16) (h8 : a8.IsWhole)
    (a9 : Memref sig .tc .vmem S10000x128 .bf16) (h9 : a9.IsWhole) (hc : ¬atFirst i)
    (x1 : Vec F S10000x128 .f32) (x2 x3 : Vec F S128x128 .f32) (x4 x5 : Vec F S304x10000 .f32) (y8 y9 : Vec F S10000x128 .bf16) :
    Σ' (L6 : List (View.Piece (Elt F) S304x128 .f32)), { L7 : List (View.Piece (Elt F) S304x128 .f32) //
      ∀ (E : Set ℕ) (K : PUnit → sProp 𝕄),
        iprop(owns (c : Thread nD τ) a1 fullShare x1 ∗ owns (c : Thread nD τ) a2 fullShare x2 ∗ owns (c : Thread nD τ) a3 fullShare x3
            ∗ owns (c : Thread nD τ) a4 fullShare x4 ∗ owns (c : Thread nD τ) a5 fullShare x5
            ∗ (∃ d, owns (c : Thread nD τ) a6 fullShare d) ∗ (∃ d, owns (c : Thread nD τ) a7 fullShare d)
            ∗ owns (c : Thread nD τ) a8 fullShare y8 ∗ owns (c : Thread nD τ) a9 fullShare y9
            ∗ (iprop(owns (c : Thread nD τ) a1 fullShare x1 ∗ owns (c : Thread nD τ) a2 fullShare x2 ∗ owns (c : Thread nD τ) a3 fullShare x3
                ∗ owns (c : Thread nD τ) a4 fullShare x4 ∗ owns (c : Thread nD τ) a5 fullShare x5
                ∗ (∃ f, a6.view.loc (c : Thread nD τ) ↦[a6.view.set]{fullShare} a6.view.writes (Elt F) f L6)
                ∗ (∃ f, a7.view.loc (c : Thread nD τ) ↦[a7.view.set]{fullShare} a7.view.writes (Elt F) f L7)
                ∗ owns (c : Thread nD τ) a8 fullShare y8 ∗ owns (c : Thread nD τ) a9 fullShare y9) -∗ K ⟨⟩))
          ⊢ wp frame (wpE (defs₀ (F := F)) Variants.none c none) E (cc0__body i a1 h1 a2 h2 a3 h3 a4 h4 a5 h5 a6 h6 a7 h7 a8 h8 a9 h9) K } := by
  refine ⟨?_, ?_, fun E K => ?run⟩
  case run =>
    simp only [cc0__body_eq_skeleton]; unfold cc0__body_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
    obtain rfl := h1.eq_unread hf1; obtain rfl := h2.eq_unread hf2; obtain rfl := h3.eq_unread hf3
    obtain rfl := h4.eq_unread hf4; obtain rfl := h5.eq_unread hf5; obtain rfl := h8.eq_unread hf8; obtain rfl := h9.eq_unread hf9
    sl_exec (disch := exact hc)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; iexact H6
    isplitl [H7]
    · iexists _; iexact H7
    isplitl [H8]
    · iexists _; isplitr; · ipureintro; exact h8.read_unread _
      iexact H8
    · iexists _; isplitr; · ipureintro; exact h9.read_unread _
      iexact H9

set_option maxHeartbeats 2000000 in
/-- At the first point the body first fills the two scratch matrices from the features and the weights, then does what
    it does at every point, reading back what it has just stored. -/
noncomputable def runFirst (c : Dev nD) (i : grid0.Coords)
    (a1 : Memref sig .tc .vmem S10000x128 .f32) (h1 : a1.IsWhole) (a2 : Memref sig .tc .vmem S128x128 .f32) (h2 : a2.IsWhole)
    (a3 : Memref sig .tc .vmem S128x128 .f32) (h3 : a3.IsWhole) (a4 : Memref sig .tc .vmem S304x10000 .f32) (h4 : a4.IsWhole)
    (a5 : Memref sig .tc .vmem S304x10000 .f32) (h5 : a5.IsWhole) (a6 : Memref sig .tc .vmem S304x128 .f32) (h6 : a6.IsWhole)
    (a7 : Memref sig .tc .vmem S304x128 .f32) (h7 : a7.IsWhole) (a8 : Memref sig .tc .vmem S10000x128 .bf16) (h8 : a8.IsWhole)
    (a9 : Memref sig .tc .vmem S10000x128 .bf16) (h9 : a9.IsWhole) (hc : atFirst i)
    (x1 : Vec F S10000x128 .f32) (x2 x3 : Vec F S128x128 .f32) (x4 x5 : Vec F S304x10000 .f32) :
    Σ' (L6 : List (View.Piece (Elt F) S304x128 .f32)) (L7 : List (View.Piece (Elt F) S304x128 .f32))
       (L8 : List (View.Piece (Elt F) S10000x128 .bf16)), { L9 : List (View.Piece (Elt F) S10000x128 .bf16) //
      ∀ (E : Set ℕ) (K : PUnit → sProp 𝕄),
        iprop(owns (c : Thread nD τ) a1 fullShare x1 ∗ owns (c : Thread nD τ) a2 fullShare x2 ∗ owns (c : Thread nD τ) a3 fullShare x3
            ∗ owns (c : Thread nD τ) a4 fullShare x4 ∗ owns (c : Thread nD τ) a5 fullShare x5
            ∗ (∃ d, owns (c : Thread nD τ) a6 fullShare d) ∗ (∃ d, owns (c : Thread nD τ) a7 fullShare d)
            ∗ (∃ d, owns (c : Thread nD τ) a8 fullShare d) ∗ (∃ d, owns (c : Thread nD τ) a9 fullShare d)
            ∗ (iprop(owns (c : Thread nD τ) a1 fullShare x1 ∗ owns (c : Thread nD τ) a2 fullShare x2 ∗ owns (c : Thread nD τ) a3 fullShare x3
                ∗ owns (c : Thread nD τ) a4 fullShare x4 ∗ owns (c : Thread nD τ) a5 fullShare x5
                ∗ (∃ f, a6.view.loc (c : Thread nD τ) ↦[a6.view.set]{fullShare} a6.view.writes (Elt F) f L6)
                ∗ (∃ f, a7.view.loc (c : Thread nD τ) ↦[a7.view.set]{fullShare} a7.view.writes (Elt F) f L7)
                ∗ (∃ f, a8.view.loc (c : Thread nD τ) ↦[a8.view.set]{fullShare} a8.view.writes (Elt F) f L8)
                ∗ (∃ f, a9.view.loc (c : Thread nD τ) ↦[a9.view.set]{fullShare} a9.view.writes (Elt F) f L9)) -∗ K ⟨⟩))
          ⊢ wp frame (wpE (defs₀ (F := F)) Variants.none c none) E (cc0__body i a1 h1 a2 h2 a3 h3 a4 h4 a5 h5 a6 h6 a7 h7 a8 h8 a9 h9) K } := by
  refine ⟨?_, ?_, ?_, ?_, fun E K => ?run⟩
  case run =>
    simp only [cc0__body_eq_skeleton]; unfold cc0__body_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
    obtain rfl := h1.eq_unread hf1; obtain rfl := h2.eq_unread hf2; obtain rfl := h3.eq_unread hf3
    obtain rfl := h4.eq_unread hf4; obtain rfl := h5.eq_unread hf5
    sl_exec (disch := exact hc)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; iexact H6
    isplitl [H7]
    · iexists _; iexact H7
    isplitl [H8]
    · iexists _; iexact H8
    · iexists _; iexact H9

theorem zeros2 : (![0, 0] : Fin 2 → Nat) = fun _ => 0 := funext fun a => by fin_cases a <;> rfl

/-! What the stores leave, in closed form: each buffer the body stores into ends at one payload of what it loaded. -/

section Later

variable (c : Dev nD) (i : grid0.Coords)
    (a1 : Memref sig .tc .vmem S10000x128 .f32) (h1 : a1.IsWhole) (a2 : Memref sig .tc .vmem S128x128 .f32) (h2 : a2.IsWhole)
    (a3 : Memref sig .tc .vmem S128x128 .f32) (h3 : a3.IsWhole) (a4 : Memref sig .tc .vmem S304x10000 .f32) (h4 : a4.IsWhole)
    (a5 : Memref sig .tc .vmem S304x10000 .f32) (h5 : a5.IsWhole) (a6 : Memref sig .tc .vmem S304x128 .f32) (h6 : a6.IsWhole)
    (a7 : Memref sig .tc .vmem S304x128 .f32) (h7 : a7.IsWhole) (a8 : Memref sig .tc .vmem S10000x128 .bf16) (h8 : a8.IsWhole)
    (a9 : Memref sig .tc .vmem S10000x128 .bf16) (h9 : a9.IsWhole) (hc : ¬atFirst i)
    (x1 : Vec F S10000x128 .f32) (x2 x3 : Vec F S128x128 .f32) (x4 x5 : Vec F S304x10000 .f32) (y8 y9 : Vec F S10000x128 .bf16)

theorem later_cover6 (y : S304x128.Idx) :
    ∃ pc ∈ (runLater c i a1 h1 a2 h2 a3 h3 a4 h4 a5 h5 a6 h6 a7 h7 a8 h8 a9 h9 hc x1 x2 x3 x4 x5 y8 y9).1, y ∈ pc.1.set :=
  View.cover_of_tiledL _ S304x128.size (by sl_kernel_rfl) y

theorem later_out6 {sig' : RefSig} {κ' : Kind} {sp' : Space} (v : View sig' κ' sp' S304x128 .f32) (f : v.ty.Contents (Elt F)) :
    v.read (Elt F) (v.writes (Elt F) f (runLater c i a1 h1 a2 h2 a3 h3 a4 h4 a5 h5 a6 h6 a7 h7 a8 h8 a9 h9 hc x1 x2 x3 x4 x5 y8 y9).1) = k0_pay6 x4 y8 := by
  rw [View.read_writes_eq_canon _ _ _ (later_cover6 c i a1 h1 a2 h2 a3 h3 a4 h4 a5 h5 a6 h6 a7 h7 a8 h8 a9 h9 hc x1 x2 x3 x4 x5 y8 y9)]
  unfold runLater; dsimp only; sl_unfold_words
  rw [View.canon_unit_zero zeros2]
  simp only [View.readAt_eq_ld, h1.read_unread, h2.read_unread, h3.read_unread, h4.read_unread, h5.read_unread, h8.read_unread, h9.read_unread,
    View.ld_unit_zero (S := S304x10000) zeros2, View.ld_unit_zero (S := S10000x128) zeros2, View.ld_unit_zero (S := S128x128) zeros2,
    View.readCov_unit_zero (S := S10000x128) a8.view zeros2, View.readCov_unit_zero (S := S10000x128) a9.view zeros2]

theorem later_cover7 (y : S304x128.Idx) :
    ∃ pc ∈ (runLater c i a1 h1 a2 h2 a3 h3 a4 h4 a5 h5 a6 h6 a7 h7 a8 h8 a9 h9 hc x1 x2 x3 x4 x5 y8 y9).2.1, y ∈ pc.1.set :=
  View.cover_of_tiledL _ S304x128.size (by sl_kernel_rfl) y

theorem later_out7 {sig' : RefSig} {κ' : Kind} {sp' : Space} (v : View sig' κ' sp' S304x128 .f32) (f : v.ty.Contents (Elt F)) :
    v.read (Elt F) (v.writes (Elt F) f (runLater c i a1 h1 a2 h2 a3 h3 a4 h4 a5 h5 a6 h6 a7 h7 a8 h8 a9 h9 hc x1 x2 x3 x4 x5 y8 y9).2.1) = k0_pay7 x5 y9 := by
  rw [View.read_writes_eq_canon _ _ _ (later_cover7 c i a1 h1 a2 h2 a3 h3 a4 h4 a5 h5 a6 h6 a7 h7 a8 h8 a9 h9 hc x1 x2 x3 x4 x5 y8 y9)]
  unfold runLater; dsimp only; sl_unfold_words
  rw [View.canon_unit_zero zeros2]
  simp only [View.readAt_eq_ld, h1.read_unread, h2.read_unread, h3.read_unread, h4.read_unread, h5.read_unread, h8.read_unread, h9.read_unread,
    View.ld_unit_zero (S := S304x10000) zeros2, View.ld_unit_zero (S := S10000x128) zeros2, View.ld_unit_zero (S := S128x128) zeros2,
    View.readCov_unit_zero (S := S10000x128) a8.view zeros2, View.readCov_unit_zero (S := S10000x128) a9.view zeros2]

end Later

section First

variable (c : Dev nD) (i : grid0.Coords)
    (a1 : Memref sig .tc .vmem S10000x128 .f32) (h1 : a1.IsWhole) (a2 : Memref sig .tc .vmem S128x128 .f32) (h2 : a2.IsWhole)
    (a3 : Memref sig .tc .vmem S128x128 .f32) (h3 : a3.IsWhole) (a4 : Memref sig .tc .vmem S304x10000 .f32) (h4 : a4.IsWhole)
    (a5 : Memref sig .tc .vmem S304x10000 .f32) (h5 : a5.IsWhole) (a6 : Memref sig .tc .vmem S304x128 .f32) (h6 : a6.IsWhole)
    (a7 : Memref sig .tc .vmem S304x128 .f32) (h7 : a7.IsWhole) (a8 : Memref sig .tc .vmem S10000x128 .bf16) (h8 : a8.IsWhole)
    (a9 : Memref sig .tc .vmem S10000x128 .bf16) (h9 : a9.IsWhole) (hc : atFirst i)
    (x1 : Vec F S10000x128 .f32) (x2 x3 : Vec F S128x128 .f32) (x4 x5 : Vec F S304x10000 .f32)

theorem first_cover6 (y : S304x128.Idx) :
    ∃ pc ∈ (runFirst c i a1 h1 a2 h2 a3 h3 a4 h4 a5 h5 a6 h6 a7 h7 a8 h8 a9 h9 hc x1 x2 x3 x4 x5).1, y ∈ pc.1.set :=
  View.cover_of_tiledL _ S304x128.size (by sl_kernel_rfl) y

theorem first_out6 {sig' : RefSig} {κ' : Kind} {sp' : Space} (v : View sig' κ' sp' S304x128 .f32) (f : v.ty.Contents (Elt F)) :
    v.read (Elt F) (v.writes (Elt F) f (runFirst c i a1 h1 a2 h2 a3 h3 a4 h4 a5 h5 a6 h6 a7 h7 a8 h8 a9 h9 hc x1 x2 x3 x4 x5).1) = k0_pay6 x4 (k0_pay4 x1 x2 x3) := by
  rw [View.read_writes_eq_canon _ _ _ (first_cover6 c i a1 h1 a2 h2 a3 h3 a4 h4 a5 h5 a6 h6 a7 h7 a8 h8 a9 h9 hc x1 x2 x3 x4 x5)]
  unfold runFirst; dsimp only; sl_unfold_words
  rw [View.canon_unit_zero zeros2]
  simp only [View.readAt_eq_ld, h1.read_unread, h2.read_unread, h3.read_unread, h4.read_unread, h5.read_unread, h8.read_unread, h9.read_unread,
    View.ld_unit_zero (S := S304x10000) zeros2, View.ld_unit_zero (S := S10000x128) zeros2, View.ld_unit_zero (S := S128x128) zeros2,
    View.readCov_unit_zero (S := S10000x128) a8.view zeros2, View.readCov_unit_zero (S := S10000x128) a9.view zeros2]

theorem first_cover7 (y : S304x128.Idx) :
    ∃ pc ∈ (runFirst c i a1 h1 a2 h2 a3 h3 a4 h4 a5 h5 a6 h6 a7 h7 a8 h8 a9 h9 hc x1 x2 x3 x4 x5).2.1, y ∈ pc.1.set :=
  View.cover_of_tiledL _ S304x128.size (by sl_kernel_rfl) y

theorem first_out7 {sig' : RefSig} {κ' : Kind} {sp' : Space} (v : View sig' κ' sp' S304x128 .f32) (f : v.ty.Contents (Elt F)) :
    v.read (Elt F) (v.writes (Elt F) f (runFirst c i a1 h1 a2 h2 a3 h3 a4 h4 a5 h5 a6 h6 a7 h7 a8 h8 a9 h9 hc x1 x2 x3 x4 x5).2.1) = k0_pay7 x5 (k0_pay5 x1 x3) := by
  rw [View.read_writes_eq_canon _ _ _ (first_cover7 c i a1 h1 a2 h2 a3 h3 a4 h4 a5 h5 a6 h6 a7 h7 a8 h8 a9 h9 hc x1 x2 x3 x4 x5)]
  unfold runFirst; dsimp only; sl_unfold_words
  rw [View.canon_unit_zero zeros2]
  simp only [View.readAt_eq_ld, h1.read_unread, h2.read_unread, h3.read_unread, h4.read_unread, h5.read_unread, h8.read_unread, h9.read_unread,
    View.ld_unit_zero (S := S304x10000) zeros2, View.ld_unit_zero (S := S10000x128) zeros2, View.ld_unit_zero (S := S128x128) zeros2,
    View.readCov_unit_zero (S := S10000x128) a8.view zeros2, View.readCov_unit_zero (S := S10000x128) a9.view zeros2]

theorem first_cover8 (y : S10000x128.Idx) :
    ∃ pc ∈ (runFirst c i a1 h1 a2 h2 a3 h3 a4 h4 a5 h5 a6 h6 a7 h7 a8 h8 a9 h9 hc x1 x2 x3 x4 x5).2.2.1, y ∈ pc.1.set :=
  View.cover_of_tiledL _ S10000x128.size (by sl_kernel_rfl) y

theorem first_out8 {sig' : RefSig} {κ' : Kind} {sp' : Space} (v : View sig' κ' sp' S10000x128 .bf16) (f : v.ty.Contents (Elt F)) :
    v.read (Elt F) (v.writes (Elt F) f (runFirst c i a1 h1 a2 h2 a3 h3 a4 h4 a5 h5 a6 h6 a7 h7 a8 h8 a9 h9 hc x1 x2 x3 x4 x5).2.2.1) = k0_pay4 x1 x2 x3 := by
  rw [View.read_writes_eq_canon _ _ _ (first_cover8 c i a1 h1 a2 h2 a3 h3 a4 h4 a5 h5 a6 h6 a7 h7 a8 h8 a9 h9 hc x1 x2 x3 x4 x5)]
  unfold runFirst; dsimp only; sl_unfold_words
  rw [View.canon_unit_zero zeros2]
  simp only [View.readAt_eq_ld, h1.read_unread, h2.read_unread, h3.read_unread, h4.read_unread, h5.read_unread, h8.read_unread, h9.read_unread,
    View.ld_unit_zero (S := S304x10000) zeros2, View.ld_unit_zero (S := S10000x128) zeros2, View.ld_unit_zero (S := S128x128) zeros2,
    View.readCov_unit_zero (S := S10000x128) a8.view zeros2, View.readCov_unit_zero (S := S10000x128) a9.view zeros2]

theorem first_cover9 (y : S10000x128.Idx) :
    ∃ pc ∈ (runFirst c i a1 h1 a2 h2 a3 h3 a4 h4 a5 h5 a6 h6 a7 h7 a8 h8 a9 h9 hc x1 x2 x3 x4 x5).2.2.2.1, y ∈ pc.1.set :=
  View.cover_of_tiledL _ S10000x128.size (by sl_kernel_rfl) y

theorem first_out9 {sig' : RefSig} {κ' : Kind} {sp' : Space} (v : View sig' κ' sp' S10000x128 .bf16) (f : v.ty.Contents (Elt F)) :
    v.read (Elt F) (v.writes (Elt F) f (runFirst c i a1 h1 a2 h2 a3 h3 a4 h4 a5 h5 a6 h6 a7 h7 a8 h8 a9 h9 hc x1 x2 x3 x4 x5).2.2.2.1) = k0_pay5 x1 x3 := by
  rw [View.read_writes_eq_canon _ _ _ (first_cover9 c i a1 h1 a2 h2 a3 h3 a4 h4 a5 h5 a6 h6 a7 h7 a8 h8 a9 h9 hc x1 x2 x3 x4 x5)]
  unfold runFirst; dsimp only; sl_unfold_words
  rw [View.canon_unit_zero zeros2]
  simp only [View.readAt_eq_ld, h1.read_unread, h2.read_unread, h3.read_unread, h4.read_unread, h5.read_unread, h8.read_unread, h9.read_unread,
    View.ld_unit_zero (S := S304x10000) zeros2, View.ld_unit_zero (S := S10000x128) zeros2, View.ld_unit_zero (S := S128x128) zeros2,
    View.readCov_unit_zero (S := S10000x128) a8.view zeros2, View.readCov_unit_zero (S := S10000x128) a9.view zeros2]

end First

end Cert.KernelIdeal.Body

end
-- ==== Proof.LibMatProd.lean ====
/-
  GENERAL LEMMAS: a plain matrix product, written two ways, read at the ideal values.

  The product of an `R × K` matrix `X` with a `K × N` matrix `W` has entry `(r, q)` equal to
  `∑ k, X (r, k) · W (k, q)`, a sum of `K` products of extended reals (`matProd`).
  Both ways a program can write that product read, at `Ideal`, as this same sum:

  * a matrix unit's `matmul` accumulated into a zero splat (`matmul_zero_eq`), and
  * the host's `dot_general` (`dotGeneral_eq`),

  for ANY dimension record that contracts the left operand's axis 1 with the right operand's axis 0 and keeps
  the other two axes in order, whatever the operands' float formats, precision and schedule. That the record does
  so is stated as four equations of coordinate values (`Contracts`), which a literal record proves by unfolding
  (two by `DotDims.lhsIdx_val_of_single` / `rhsIdx_val_of_single`, two by `dif_neg` / `dif_pos` on its literal
  axis lists). Nothing here needs a finiteness hypothesis: the two sides are the same sum of the same products,
  term by term. Imports the library only.
-/
import Idealize.ShloMosaic.PureOps.Ideal.Laws
import Idealize.ShloMosaic.Lib.ValueIdx

noncomputable section

open scoped BigOperators

namespace Cert.Linear

open Idealize.ShloMosaic Idealize.ShloMosaic.ValueIdx

/-- The shape of a matrix of `a` rows and `b` columns. -/
abbrev Mat (a b : Nat) : Shape := ⟨2, ![a, b]⟩

/-- `X · W`, entry by entry: row `r` of `X` against column `q` of `W`. -/
def matProd {R K N : Nat} (X : (Mat R K).Idx → EReal) (W : (Mat K N).Idx → EReal) : (Mat R N).Idx → EReal :=
  fun i => ∑ k : Fin K, X (ix2 (n0 := R) (n1 := K) (i 0) k) * W (ix2 (n0 := K) (n1 := N) k (i 1))

/-- A dimension record for `[R,K] × [K,N] → [R,N]` that contracts the left operand's columns with the right
    operand's rows: one contracted axis of extent `K`, and at result index `i` and contraction index `q` the left
    operand is read at `(i 0, q)` and the right one at `(q, i 1)`. -/
structure Contracts {R K N : Nat} (d : DotDims (Mat R K) (Mat K N) (Mat R N)) : Prop where
  rank : d.contr.rank = 1
  size : d.contr.size ⟨0, by omega⟩ = K
  lhs0 : ∀ (i : (Mat R N).Idx) (q : d.contr.Idx), (d.lhsIdx i q 0).val = (i 0).val
  lhs1 : ∀ (i : (Mat R N).Idx) (q : d.contr.Idx), (d.lhsIdx i q 1).val = (q ⟨0, by omega⟩).val
  rhs0 : ∀ (i : (Mat R N).Idx) (q : d.contr.Idx), (d.rhsIdx i q 0).val = (q ⟨0, by omega⟩).val
  rhs1 : ∀ (i : (Mat R N).Idx) (q : d.contr.Idx), (d.rhsIdx i q 1).val = (i 1).val

/-- The sum over such a record's contraction index of the operands' products is the sum over `k < K` of
    `X (i 0, k) · W (k, i 1)`: the contraction index is its one coordinate. -/
theorem contraction_sum {R K N : Nat} {d : DotDims (Mat R K) (Mat K N) (Mat R N)} (h : Contracts d)
    (X : (Mat R K).Idx → EReal) (W : (Mat K N).Idx → EReal) (i : (Mat R N).Idx) :
    ∑ q : d.contr.Idx, X (d.lhsIdx i q) * W (d.rhsIdx i q) = matProd X W i := by
  unfold matProd
  rw [← Equiv.sum_comp (contrEquiv1 d K h.rank h.size).symm]
  refine Finset.sum_congr rfl fun k _ => ?_
  have hk := contrEquiv1_symm_val d K h.rank h.size k
  have el : d.lhsIdx i ((contrEquiv1 d K h.rank h.size).symm k) = ix2 (n0 := R) (n1 := K) (i 0) k :=
    funext fun a => Fin.ext (by
      match a with
      | ⟨0, _⟩ => exact h.lhs0 _ _
      | ⟨1, _⟩ => exact (h.lhs1 _ _).trans hk)
  have er : d.rhsIdx i ((contrEquiv1 d K h.rank h.size).symm k) = ix2 (n0 := K) (n1 := N) k (i 1) :=
    funext fun a => Fin.ext (by
      match a with
      | ⟨0, _⟩ => exact (h.rhs0 _ _).trans hk
      | ⟨1, _⟩ => exact h.rhs1 _ _)
  rw [el, er]

/-- A matrix unit's product accumulated into the zero splat is `X · W`, whatever the operands' float formats. -/
theorem matmul_zero_eq {R K N : Nat} {φ₁ φ₂ : FTy} {d : DotDims (Mat R K) (Mat K N) (Mat R N)} (h : Contracts d)
    (prec : Option ContractPrecision) (X : FVec Ideal (Mat R K) φ₁) (W : FVec Ideal (Mat K N) φ₂) :
    FloatOps.matmul d prec X W (constant (F := Ideal) (Mat R N) .f32 0x00000000#32) = matProd X W :=
  funext fun i => (Ideal.matmul_constant_zero_apply d prec X W i).trans (contraction_sum h X W i)

/-- The host's `dot_general` is `X · W`, whatever its precision and schedule. -/
theorem dotGeneral_eq {R K N : Nat} {φ₁ φ₂ : FTy} {d : DotDims (Mat R K) (Mat K N) (Mat R N)} (h : Contracts d)
    (prec : Option ContractPrecision) (sched : HostSchedule) (X : FVec Ideal (Mat R K) φ₁) (W : FVec Ideal (Mat K N) φ₂) :
    FloatOps.dotGeneral d prec sched X W = matProd X W :=
  funext fun i => (Ideal.dotGeneral_apply d prec sched X W i).trans (contraction_sum h X W i)

end Cert.Linear

end
-- ==== Proof.Spec.lean ====
/-
  The function both programs compute, over the extended reals.

  With X the 10000 × 128 feature matrix, Wm and Ws the two 128 × 128 weight matrices and A1, A2 the two
  10000 × 10000 adjacency matrices, write M = X · Wm and S = max (X · Ws) 0 entry by entry. The first hidden
  matrix is elu(M) · e^(−S) and the second S · e^(−S) · e^(−S), entry by entry, where elu(y) is y for y > 0 and
  e^y − 1 otherwise; the two results are A1 · (first hidden matrix) and A2 · (second hidden matrix).
  Everything is a sum of products of extended reals, so no finiteness is needed anywhere.
-/
import proofs.«133317_g24283745092303_cont_9to1_376_8_alg».proof.Proof.LibMatProd

noncomputable section

namespace Cert.Spec

open Idealize.ShloMosaic Cert.Linear

/-- elu(y) · e^(0 − max s 0): one entry of the first hidden matrix from the entries y of X · Wm and s of X · Ws. -/
def eluAtt (y s : EReal) : EReal :=
  Scalar.select (Ideal.cmp .ogt y 0) y (Ideal.exp y - 1) * Ideal.exp (0 - max s 0)

/-- max s 0 · e^(0 − max s 0) · e^(0 − max s 0): one entry of the second hidden matrix. -/
def reluAtt2 (s : EReal) : EReal :=
  max s 0 * Ideal.exp (0 - max s 0) * Ideal.exp (0 - max s 0)

/-- The first hidden matrix. -/
def hid1 (X : (Mat 10000 128).Idx → EReal) (Wm Ws : (Mat 128 128).Idx → EReal) : (Mat 10000 128).Idx → EReal :=
  fun i => eluAtt (matProd X Wm i) (matProd X Ws i)

/-- The second hidden matrix. -/
def hid2 (X : (Mat 10000 128).Idx → EReal) (Ws : (Mat 128 128).Idx → EReal) : (Mat 10000 128).Idx → EReal :=
  fun i => reluAtt2 (matProd X Ws i)

/-- The first result: A1 · hid1. -/
def out1 (X : (Mat 10000 128).Idx → EReal) (A1 : (Mat 10000 10000).Idx → EReal) (Wm Ws : (Mat 128 128).Idx → EReal) :
    (Mat 10000 128).Idx → EReal :=
  matProd A1 (hid1 X Wm Ws)

/-- The second result: A2 · hid2. -/
def out2 (X : (Mat 10000 128).Idx → EReal) (A2 : (Mat 10000 10000).Idx → EReal) (Ws : (Mat 128 128).Idx → EReal) :
    (Mat 10000 128).Idx → EReal :=
  matProd A2 (hid2 X Ws)

end Cert.Spec

end
-- ==== Proof.DataI.lean ====
/-
  What the kernel's buffers hold point by point, at the ideal values, and the run read from it.

  At the first grid point the body fills two scratch matrices — the two hidden matrices, as the payloads hidA and
  hidB of the feature block and the two weight blocks — and at every point it stores, into the two output blocks,
  the products of the two staged adjacency blocks with them. The scratch matrices are never stored into again, so
  after every point they hold hidA and hidB. An adjacency block that overhangs its array is staged with words nothing
  names past the array's end; the rows of the products computed from those words are not written back, and the rows
  that are written back do not depend on them (prod_row1, prod_row2).
-/
import proofs.«133317_g24283745092303_cont_9to1_376_8_alg».proof.Proof.BodyRunI
import proofs.«133317_g24283745092303_cont_9to1_376_8_alg».proof.Proof.Spec

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.Linear

local notation "𝕄" => MT nD τ sig Unit (Elt Ideal) ℕ (UR sig nD τ) ℕ

variable (m : (ℓ : Loc nD τ sig) → Buf (Elt Ideal) ℓ) (ρ : Dev nD → PrngReg)

/-- The two scratch matrices, as whole buffers. -/
abbrev scr0 : Memref sig .tc .vmem S10000x128 .bf16 := Memref.whole cc0_scratch0
abbrev scr1 : Memref sig .tc .vmem S10000x128 .bf16 := Memref.whole cc0_scratch1

/-- Before the first point the region holds the two scratch matrices at some contents, and the generator register. -/
theorem scratch_any (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-- The first grid point. -/
def t₀ : Fin cfg0.N := ⟨0, by rw [show cfg0.N = 33 from N_0]; omega⟩

/-- The staged adjacency blocks at a point, the rows past the array's end filled with `d`. -/
def adj1Blk (c : Dev nD) (t : Fin cfg0.N) (d : S304x10000.Idx → EReal) : S304x10000.Idx → EReal :=
  win0_3.fill (grid0.coords t) d (iblk m c 3 t)
def adj2Blk (c : Dev nD) (t : Fin cfg0.N) (d : S304x10000.Idx → EReal) : S304x10000.Idx → EReal :=
  win0_4.fill (grid0.coords t) d (iblk m c 4 t)

/-- A filler nothing reads. -/
def noWords : S304x10000.Idx → EReal := fun _ => 0

/-- The two hidden matrices as the body computes them at the first point. -/
def hidA (c : Dev nD) : S10000x128.Idx → EReal := k0_pay4 (F := Ideal) (iblk m c 0 t₀) (iblk m c 1 t₀) (iblk m c 2 t₀)
def hidB (c : Dev nD) : S10000x128.Idx → EReal := k0_pay5 (F := Ideal) (iblk m c 0 t₀) (iblk m c 2 t₀)

/-- The region's invariant before position `n`: before the first point the scratch matrices hold anything, afterwards
    the two hidden matrices. -/
def PhiS (c : Dev nD) : ℕ → sProp 𝕄
  | 0 => Pipeline.ΦA spec0 c
  | _ + 1 => iprop(iprop(owns (c : Thread nD τ) scr0 fullShare (hidA m c) ∗ owns (c : Thread nD τ) scr1 fullShare (hidB m c)) ∗ (∃ r, prngReg c r))

/-- The proof data: the arrays as the region finds them; after the body each input's buffer at its block, each
    output's at the product of its adjacency block with its hidden matrix. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => adj1Blk m c t noWords
    | ⟨4, _⟩ => adj2Blk m c t noWords
    | ⟨5, _⟩ => k0_pay6 (F := Ideal) (adj1Blk m c t noWords) (hidA m c)
    | ⟨6, _⟩ => k0_pay7 (F := Ideal) (adj2Blk m c t noWords) (hidB m c)
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = adj1Blk m c t noWords := by dsimp only [dats]
theorem after_4 (c : Dev nD) (t : Fin cfg0.N) : (dats m 0 c).after 4 t = adj2Blk m c t noWords := by dsimp only [dats]
theorem after_5 (c : Dev nD) (t : Fin cfg0.N) :
    (dats m 0 c).after 5 t = k0_pay6 (F := Ideal) (adj1Blk m c t noWords) (hidA m c) := by dsimp only [dats]
theorem after_6 (c : Dev nD) (t : Fin cfg0.N) :
    (dats m 0 c).after 6 t = k0_pay7 (F := Ideal) (adj2Blk m c t noWords) (hidB m c) := by dsimp only [dats]

/-- What the body finds: the three whole-array inputs at their blocks, -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
/-- the two adjacency blocks just fetched, -/
theorem before_3 (c : Dev nD) (t : Fin cfg0.N) (d) : (dats m 0 c).before 3 t d = adj1Blk m c t d := by
  rw [Dat.before_fetched _ 3 t (fetch0_3 t)]; rfl
theorem before_4 (c : Dev nD) (t : Fin cfg0.N) (d) : (dats m 0 c).before 4 t d = adj2Blk m c t d := by
  rw [Dat.before_fetched _ 4 t (fetch0_4 t)]; rfl
/-- the two output buffers at contents nothing names. -/
theorem before_5 (c : Dev nD) (t : Fin cfg0.N) (d) : (dats m 0 c).before 5 t d = d :=
  Dat.before_out_reset _ 5 rfl t (by
    by_cases h : t.val = 0
    · exact .inl h
    · exact .inr ⟨h, flush0_5 _⟩) d
theorem before_6 (c : Dev nD) (t : Fin cfg0.N) (d) : (dats m 0 c).before 6 t d = d :=
  Dat.before_out_reset _ 6 rfl t (by
    by_cases h : t.val = 0
    · exact .inl h
    · exact .inr ⟨h, flush0_6 _⟩) d

end Cert.KernelIdeal.Body

end
-- ==== Proof.BlockRows.lean ====
/-
  A row block of an adjacency matrix times a hidden matrix, read where the block lies inside the array.

  At grid point t the kernel holds rows 304·t … 304·t + 303 of an adjacency matrix A in a staging buffer; at the last
  point only the first 272 of them are rows of A, and the rest of the buffer holds words nothing names. Row p of the
  product of the buffer with a hidden matrix H depends on row p of the buffer alone, so for every row p that is a row
  of A the product's entry (p, q) is ∑ k, A (304·t + p, k) · H (k, q), whatever fills the rest of the buffer. This
  is the entry of A · H at the array index the output block's entry (p, q) is written back to.
-/
import proofs.«133317_g24283745092303_cont_9to1_376_8_alg».proof.Proof.BodyRunI
import proofs.«133317_g24283745092303_cont_9to1_376_8_alg».proof.Proof.Spec

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.Linear

local notation "𝕄" => MT nD τ sig Unit (Elt Ideal) ℕ (UR sig nD τ) ℕ

variable (m : (ℓ : Loc nD τ sig) → Buf (Elt Ideal) ℓ) (ρ : Dev nD → PrngReg)

/-- Where the blocks lie, decided over the grid: an adjacency block and the output block beside it have the same
    rows inside their arrays, an adjacency block spans all 10000 columns, an output block all 128. -/
theorem blk_facts : ∀ t : Fin cfg0.N,
    win0_3.xsize (grid0.coords t) 0 = win0_5.xsize (grid0.coords t) 0 ∧ win0_3.xsize (grid0.coords t) 1 = 10000
    ∧ win0_4.xsize (grid0.coords t) 0 = win0_6.xsize (grid0.coords t) 0 ∧ win0_4.xsize (grid0.coords t) 1 = 10000
    ∧ win0_3.index t 0 = win0_5.index t 0 ∧ win0_3.index t 1 = 0 ∧ win0_5.index t 1 = 0
    ∧ win0_4.index t 0 = win0_6.index t 0 ∧ win0_4.index t 1 = 0 ∧ win0_6.index t 1 = 0 :=
  (by decide +kernel : ∀ t : Fin grid0.N, _)

/-- Rows of the first adjacency matrix: the product of the staged block (filled out with anything) with a hidden
    matrix, at an entry of the output block inside the array, is the entry of the whole product there. -/
theorem prod_row1 (c : Dev nD) (t : Fin cfg0.N) (d : S304x10000.Idx → EReal) (H : (Mat 10000 128).Idx → EReal)
    (j : (win0_5.xblock (grid0.coords t)).Idx) :
    matProd (R := 304) (K := 10000) (N := 128) (win0_3.fill (grid0.coords t) d (iblk m c 3 t)) H (win0_5.xinj (grid0.coords t) j)
      = matProd (R := 10000) (K := 10000) (N := 128) (V m c main_arg1) H (((cfg0.win 5).blk t).view.emb j) := by
  obtain ⟨e0, e1, -, -, e4, e5, e6, -, -, -⟩ := blk_facts t
  unfold matProd
  refine Finset.sum_congr rfl fun k _ => ?_
  have hx0 : (j 0).val < win0_3.xsize (grid0.coords t) 0 := by rw [e0]; exact (j 0).isLt
  have hx1 : k.val < win0_3.xsize (grid0.coords t) 1 := by rw [e1]; exact k.isLt
  have hb : ∀ a : Fin 2, ((ix2 (n0 := 304) (n1 := 10000) (win0_5.xinj (grid0.coords t) j 0) k : (Mat 304 10000).Idx) a).val
      < win0_3.xsize (grid0.coords t) a := Fin.forall_fin_two.mpr ⟨hx0, hx1⟩
  have hl : (ix2 (n0 := 304) (n1 := 10000) (win0_5.xinj (grid0.coords t) j 0) k : (Mat 304 10000).Idx)
      = win0_3.xinj (grid0.coords t) (fun a => ⟨_, hb a⟩) := rfl
  have hr : (ix2 (n0 := 10000) (n1 := 128) k (win0_5.xinj (grid0.coords t) j 1) : (Mat 10000 128).Idx)
      = ix2 (n0 := 10000) (n1 := 128) k (((cfg0.win 5).blk t).view.emb j 1) :=
    funext fun a => Fin.ext (by
      match a with
      | ⟨0, _⟩ => rfl
      | ⟨1, _⟩ => show (j 1).val = win0_5.index t 1 * 128 + 1 * (j 1).val; omega)
  rw [hl, hr, Window.fill_xinj]
  refine congrArg (· * _) ?_
  show V m c main_arg1 (((cfg0.win 3).blk t).view.emb (fun a => ⟨_, hb a⟩))
    = V m c main_arg1 (ix2 (n0 := 10000) (n1 := 10000) (((cfg0.win 5).blk t).view.emb j 0) k)
  refine congrArg _ (funext (Fin.forall_fin_two.mpr ⟨Fin.ext ?_, Fin.ext ?_⟩))
  · show win0_3.index t 0 * 304 + 1 * (j 0).val = win0_5.index t 0 * 304 + 1 * (j 0).val; omega
  · show win0_3.index t 1 * 10000 + 1 * k.val = k.val; omega

/-- Rows of the second adjacency matrix, likewise. -/
theorem prod_row2 (c : Dev nD) (t : Fin cfg0.N) (d : S304x10000.Idx → EReal) (H : (Mat 10000 128).Idx → EReal)
    (j : (win0_6.xblock (grid0.coords t)).Idx) :
    matProd (R := 304) (K := 10000) (N := 128) (win0_4.fill (grid0.coords t) d (iblk m c 4 t)) H (win0_6.xinj (grid0.coords t) j)
      = matProd (R := 10000) (K := 10000) (N := 128) (V m c main_arg2) H (((cfg0.win 6).blk t).view.emb j) := by
  obtain ⟨-, -, e0, e1, -, -, -, e4, e5, e6⟩ := blk_facts t
  unfold matProd
  refine Finset.sum_congr rfl fun k _ => ?_
  have hx0 : (j 0).val < win0_4.xsize (grid0.coords t) 0 := by rw [e0]; exact (j 0).isLt
  have hx1 : k.val < win0_4.xsize (grid0.coords t) 1 := by rw [e1]; exact k.isLt
  have hb : ∀ a : Fin 2, ((ix2 (n0 := 304) (n1 := 10000) (win0_6.xinj (grid0.coords t) j 0) k : (Mat 304 10000).Idx) a).val
      < win0_4.xsize (grid0.coords t) a := Fin.forall_fin_two.mpr ⟨hx0, hx1⟩
  have hl : (ix2 (n0 := 304) (n1 := 10000) (win0_6.xinj (grid0.coords t) j 0) k : (Mat 304 10000).Idx)
      = win0_4.xinj (grid0.coords t) (fun a => ⟨_, hb a⟩) := rfl
  have hr : (ix2 (n0 := 10000) (n1 := 128) k (win0_6.xinj (grid0.coords t) j 1) : (Mat 10000 128).Idx)
      = ix2 (n0 := 10000) (n1 := 128) k (((cfg0.win 6).blk t).view.emb j 1) :=
    funext fun a => Fin.ext (by
      match a with
      | ⟨0, _⟩ => rfl
      | ⟨1, _⟩ => show (j 1).val = win0_6.index t 1 * 128 + 1 * (j 1).val; omega)
  rw [hl, hr, Window.fill_xinj]
  refine congrArg (· * _) ?_
  show V m c main_arg2 (((cfg0.win 4).blk t).view.emb (fun a => ⟨_, hb a⟩))
    = V m c main_arg2 (ix2 (n0 := 10000) (n1 := 10000) (((cfg0.win 6).blk t).view.emb j 0) k)
  refine congrArg _ (funext (Fin.forall_fin_two.mpr ⟨Fin.ext ?_, Fin.ext ?_⟩))
  · show win0_4.index t 0 * 304 + 1 * (j 0).val = win0_6.index t 0 * 304 + 1 * (j 0).val; omega
  · show win0_4.index t 1 * 10000 + 1 * k.val = k.val; omega

end Cert.KernelIdeal.Body

end
-- ==== Proof.Payloads.lean ====
/-
  The idealized kernel's payload terms, read at the ideal values as whole arrays.

  At the ideal values a change of float format is the identity, a matrix unit's product accumulated into the zero
  array is the plain matrix product (its dimension record contracts the left operand's columns with the right
  operand's rows), and a cast of an array to its own shape is the array. So, with X the features and Wm, Ws the two
  weight matrices:

  * the kernel's max (X · Ws) 0 and e^(0 − max (X · Ws) 0) are the specification's, entry by entry;
  * its first hidden array is select (y > 0) y (e^y − 1) * e^(0 − max s 0) at y = (X · Wm) i, s = (X · Ws) i, which is
    the specification's first hidden matrix verbatim once the literals 0x00000000 and 0x3F800000 are read as 0 and 1;
  * its second hidden array is max s 0 * e^(0 − max s 0) * e^(0 − max s 0), the specification's second hidden matrix;
  * each row block's product B · H of a 304 × 10000 block of an adjacency matrix with a hidden array is the matrix
    product of the block with the array.

  No finiteness is needed: both sides are the same sums of the same products.
-/
import proofs.«133317_g24283745092303_cont_9to1_376_8_alg».proof.Proof.Gen.KernelIdeal.Skeleton
import proofs.«133317_g24283745092303_cont_9to1_376_8_alg».proof.Proof.Spec
import Idealize.ShloMosaic.PureOps.IdealRules

noncomputable section

namespace Cert.KernelIdeal.Payloads

open Cert.KernelIdeal Cert.KernelIdeal.Gen Cert.Linear Idealize.ShloMosaic Idealize.ShloMosaic.ValueIdx

/-! ## The two dimension records contract columns with rows -/

/-- [10000,128] × [128,128]: one contracted axis of extent 128; the left operand is read at (i 0, q), the right at (q, i 1). -/
theorem contracts_feat : Contracts (R := 10000) (K := 128) (N := 128) Cert.KernelIdeal.dot_S10000x128_S128x128_S10000x128_1_0_0_1_n_n where
  rank := rfl
  size := rfl
  lhs0 := fun _ _ => rfl
  lhs1 := fun i q => DotDims.lhsIdx_val_of_single _ rfl i q
  rhs0 := fun i q => DotDims.rhsIdx_val_of_single _ rfl i q
  rhs1 := fun _ _ => rfl

/-- [304,10000] × [10000,128]: one contracted axis of extent 10000, read the same way. -/
theorem contracts_blk : Contracts (R := 304) (K := 10000) (N := 128) Cert.KernelIdeal.dot_S304x10000_S10000x128_S304x128_1_0_0_1_n_n where
  rank := rfl
  size := rfl
  lhs0 := fun _ _ => rfl
  lhs1 := fun i q => DotDims.lhsIdx_val_of_single _ rfl i q
  rhs0 := fun i q => DotDims.rhsIdx_val_of_single _ rfl i q
  rhs1 := fun _ _ => rfl

/-! ## The two products -/

/-- The feature product as the kernel writes it: the matrix unit's product accumulated into the zero array. -/
abbrev featMM (X : (Mat 10000 128).Idx → EReal) (W : (Mat 128 128).Idx → EReal) : (Mat 10000 128).Idx → EReal :=
  FloatOps.matmul (F := Ideal) (φ₁ := .bf16) (φ₂ := .bf16) Cert.KernelIdeal.dot_S10000x128_S128x128_S10000x128_1_0_0_1_n_n none X W
    (constant (F := Ideal) (Mat 10000 128) .f32 0x00000000#32)

/-- It is X · W. -/
theorem featMM_eq (X : (Mat 10000 128).Idx → EReal) (W : (Mat 128 128).Idx → EReal) : featMM X W = matProd X W :=
  matmul_zero_eq contracts_feat none X W

/-- A row block's product: B · H for a 304 × 10000 block B. -/
theorem pay6_eq (B : (Mat 304 10000).Idx → EReal) (H : (Mat 10000 128).Idx → EReal) :
    k0_pay6 (F := Ideal) B H = matProd B H :=
  matmul_zero_eq (φ₁ := .bf16) (φ₂ := .bf16) contracts_blk none B H

/-- The same for the second result's row block. -/
theorem pay7_eq (B : (Mat 304 10000).Idx → EReal) (H : (Mat 10000 128).Idx → EReal) :
    k0_pay7 (F := Ideal) B H = matProd B H :=
  matmul_zero_eq (φ₁ := .bf16) (φ₂ := .bf16) contracts_blk none B H

/-! ## The literals, and a cast to the same shape -/

theorem ofBits_one : Ideal.ofBits .f32 0x3F800000#32 = 1 := IdealRules.sign_bit.ideal_onePat .f32

/-- A cast of an array to its own shape is the array. -/
theorem shapeCast_same {s : Shape} {α : Type} (v : s.Idx → α) (h : s.ShapeCasts s) : shapeCast s v h = v :=
  funext fun i => congrArg v (Shape.reshapeEquiv_self _ i)

/-! ## Entry by entry -/

/-- max (X · Ws) 0 at an entry. -/
theorem pay2_apply (X : (Mat 10000 128).Idx → EReal) (Ws : (Mat 128 128).Idx → EReal) (i : (Mat 10000 128).Idx) :
    k0_pay2 (F := Ideal) X Ws i = max (matProd X Ws i) 0 := by
  show max (featMM X Ws i) (Ideal.ofBits .f32 0x00000000#32) = _
  rw [Ideal.ofBits_zero_f32, featMM_eq]

/-- e^(0 − max (X · Ws) 0) at an entry. -/
theorem pay3_apply (X : (Mat 10000 128).Idx → EReal) (Ws : (Mat 128 128).Idx → EReal) (i : (Mat 10000 128).Idx) :
    k0_pay3 (F := Ideal) X Ws i = Ideal.exp (0 - max (matProd X Ws i) 0) := by
  show Ideal.exp (Ideal.ofBits .f32 0x00000000#32 - k0_pay2 (F := Ideal) X Ws i) = _
  rw [Ideal.ofBits_zero_f32, pay2_apply]

/-! ## The two hidden arrays -/

/-- The kernel's first hidden array is the specification's first hidden matrix. -/
theorem pay4_eq (X : (Mat 10000 128).Idx → EReal) (Wm Ws : (Mat 128 128).Idx → EReal) :
    k0_pay4 (F := Ideal) X Wm Ws = Cert.Spec.hid1 X Wm Ws := by
  refine (shapeCast_same _ _).trans (funext fun i => ?_)
  show Scalar.select (Ideal.cmp .ogt (featMM X Wm i) (Ideal.ofBits .f32 0x00000000#32)) (featMM X Wm i)
        (Ideal.exp (featMM X Wm i) - Ideal.ofBits .f32 0x3F800000#32) * k0_pay3 (F := Ideal) X Ws i
      = Cert.Spec.eluAtt (matProd X Wm i) (matProd X Ws i)
  rw [Ideal.ofBits_zero_f32, ofBits_one, featMM_eq, pay3_apply]
  rfl

/-- The kernel's second hidden array is the specification's second hidden matrix. -/
theorem pay5_eq (X : (Mat 10000 128).Idx → EReal) (Ws : (Mat 128 128).Idx → EReal) :
    k0_pay5 (F := Ideal) X Ws = Cert.Spec.hid2 X Ws := by
  refine (shapeCast_same _ _).trans (funext fun i => ?_)
  show k0_pay2 (F := Ideal) X Ws i * k0_pay3 (F := Ideal) X Ws i * k0_pay3 (F := Ideal) X Ws i
      = Cert.Spec.reluAtt2 (matProd X Ws i)
  rw [pay3_apply, pay2_apply]
  rfl

end Cert.KernelIdeal.Payloads

end
-- ==== Proof.ObligI.lean ====
/-
  The body's obligation at every grid point, at the ideal values.

  At a point the body is handed the three whole-array inputs at their blocks, the two adjacency blocks as just
  fetched (filled out with anything past the array's end), the two output buffers and — at the first point — the
  scratch matrices at anything, afterwards at the two hidden matrices. It leaves the inputs as they were, the scratch
  at the hidden matrices, and each output buffer at the product of its adjacency block with its hidden matrix. The
  rows of that product inside the array do not depend on what fills the adjacency buffer past the array's end, which
  is all the obligation of a block that overhangs its array asks.
-/
import proofs.«133317_g24283745092303_cont_9to1_376_8_alg».proof.Proof.DataI
import proofs.«133317_g24283745092303_cont_9to1_376_8_alg».proof.Proof.BlockRows
import proofs.«133317_g24283745092303_cont_9to1_376_8_alg».proof.Proof.Payloads

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.Linear

local notation "𝕄" => MT nD τ sig Unit (Elt Ideal) ℕ (UR sig nD τ) ℕ

variable (m : (ℓ : Loc nD τ sig) → Buf (Elt Ideal) ℓ) (ρ : Dev nD → PrngReg)

open Cert.KernelIdeal.Payloads

/-- The rows of the first product that are written back do not depend on the filler. -/
theorem cut_prod1 (c : Dev nD) (t : Fin cfg0.N) (d d' : S304x10000.Idx → EReal) (H : S10000x128.Idx → EReal) :
    win0_5.cut (grid0.coords t) (k0_pay6 (F := Ideal) (adj1Blk m c t d) H)
      = win0_5.cut (grid0.coords t) (k0_pay6 (F := Ideal) (adj1Blk m c t d') H) := by
  funext j
  show k0_pay6 (F := Ideal) (adj1Blk m c t d) H (win0_5.xinj (grid0.coords t) j) = k0_pay6 (F := Ideal) (adj1Blk m c t d') H (win0_5.xinj (grid0.coords t) j)
  rw [pay6_eq, pay6_eq]
  exact (prod_row1 m c t d H j).trans (prod_row1 m c t d' H j).symm

/-- The rows of the second product that are written back do not depend on the filler. -/
theorem cut_prod2 (c : Dev nD) (t : Fin cfg0.N) (d d' : S304x10000.Idx → EReal) (H : S10000x128.Idx → EReal) :
    win0_6.cut (grid0.coords t) (k0_pay7 (F := Ideal) (adj2Blk m c t d) H)
      = win0_6.cut (grid0.coords t) (k0_pay7 (F := Ideal) (adj2Blk m c t d') H) := by
  funext j
  show k0_pay7 (F := Ideal) (adj2Blk m c t d) H (win0_6.xinj (grid0.coords t) j) = k0_pay7 (F := Ideal) (adj2Blk m c t d') H (win0_6.xinj (grid0.coords t) j)
  rw [pay7_eq, pay7_eq]
  exact (prod_row2 m c t d H j).trans (prod_row2 m c t d' H j).symm

set_option maxHeartbeats 4000000 in
theorem body_obligation (c : Dev nD) :
    BodyObligationLoose (dats m 0 c) (defs₀ (F := Ideal)) Variants.none () Set.univ := fun t => by
  simp only [bigSep_W0]
  rw [show (dats m 0 c).owesAt () t.succ = (dats m 0 c).owesAt () t.castSucc from rfl,
    show (dats m 0 c).Φ t.succ = PhiS m c (t.val + 1) from rfl, show (dats m 0 c).Φ t.castSucc = PhiS m c t.val from rfl]
  show _ ⊢ wp frame (wpE (defs₀ (F := Ideal)) Variants.none c none) Set.univ (bodyAt0 t) _
  rw [after_0, after_1, after_2, after_3, after_4, after_5, after_6,
    show (win0 3).cut (grid0.coords t) (adj1Blk m c t noWords) = iblk m c 3 t from win0_3.cut_fill _ _ _,
    show (win0 4).cut (grid0.coords t) (adj2Blk m c t noWords) = iblk m c 4 t from win0_4.cut_fill _ _ _]
  by_cases hz : t.val = 0
  · obtain rfl : t = t₀ := Fin.ext hz
    rw [show PhiS m c (t₀ : Fin cfg0.N).val = Pipeline.ΦA spec0 c from rfl,
      show PhiS m c ((t₀ : Fin cfg0.N).val + 1)
        = iprop(iprop(owns (c : Thread nD τ) scr0 fullShare (hidA m c) ∗ owns (c : Thread nD τ) scr1 fullShare (hidB m c)) ∗ (∃ r, prngReg c r)) from rfl,
      scratch_any]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    rw [before_0 m c _ d0, before_1 m c _ d1, before_2 m c _ d2, before_3 m c _ d3, before_4 m c _ d4]
    iapply ((runFirst (F := Ideal) c (grid0.coords t₀) _ _ _ _ _ _ _ _ _ _ _ _ _ _ _ _ _ _ ((atFirst_iff t₀).mpr rfl)
      (iblk m c 0 t₀) (iblk m c 1 t₀) (iblk m c 2 t₀) (adj1Blk m c t₀ d3) (adj2Blk m c t₀ d4)).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    iintro ⟨H0, H1, H2, H3, H4, ⟨%e5, H5⟩, ⟨%e6, H6⟩, ⟨%e8, HS0⟩, ⟨%e9, HS1⟩⟩
    isplitl [HS0 HS1 Hg]
    · isplitl [HS0 HS1]
      · isplitl [HS0]
        · unfold owns; iexists _; isplitr
          swap; · iexact HS0
          ipureintro; exact first_out8 (F := Ideal) c _ _ _ _ _ _ _ _ _ _ _ _ _ _ _ _ _ _ _ _ _ _ _ _ _ _ _
        · unfold owns; iexists _; isplitr
          swap; · iexact HS1
          ipureintro; exact first_out9 (F := Ideal) c _ _ _ _ _ _ _ _ _ _ _ _ _ _ _ _ _ _ _ _ _ _ _ _ _ _ _
      iexact Hg
    isplitl [Ho]; · iexact Ho
    isplitl [H0]; · iexact H0
    isplitl [H1]; · iexact H1
    isplitl [H2]; · iexact H2
    isplitl [H3]; · iexists d3; iexact H3
    isplitl [H4]; · iexists d4; iexact H4
    isplitl [H5]
    · iexists (k0_pay6 (F := Ideal) (adj1Blk m c t₀ d3) (hidA m c))
      unfold owns; iexists _; isplitr
      swap; · iexact H5
      ipureintro
      refine (first_out6 (F := Ideal) c _ _ _ _ _ _ _ _ _ _ _ _ _ _ _ _ _ _ _ _ _ _ _ _ _ _ _).trans ?_
      exact (win0_5.fill_congr_cut _ (cut_prod1 m c t₀ d3 noWords (hidA m c))).symm
    · iexists (k0_pay7 (F := Ideal) (adj2Blk m c t₀ d4) (hidB m c))
      unfold owns; iexists _; isplitr
      swap; · iexact H6
      ipureintro
      refine (first_out7 (F := Ideal) c _ _ _ _ _ _ _ _ _ _ _ _ _ _ _ _ _ _ _ _ _ _ _ _ _ _ _).trans ?_
      exact (win0_6.fill_congr_cut _ (cut_prod2 m c t₀ d4 noWords (hidB m c))).symm
  · obtain ⟨n, hn⟩ : ∃ n, t.val = n + 1 := Nat.exists_eq_succ_of_ne_zero hz
    rw [hn,
      show PhiS m c (n + 1)
        = iprop(iprop(owns (c : Thread nD τ) scr0 fullShare (hidA m c) ∗ owns (c : Thread nD τ) scr1 fullShare (hidB m c)) ∗ (∃ r, prngReg c r)) from rfl,
      show PhiS m c (n + 1 + 1)
        = iprop(iprop(owns (c : Thread nD τ) scr0 fullShare (hidA m c) ∗ owns (c : Thread nD τ) scr1 fullShare (hidB m c)) ∗ (∃ r, prngReg c r)) from rfl]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    rw [before_0 m c _ d0, before_1 m c _ d1, before_2 m c _ d2, before_3 m c _ d3, before_4 m c _ d4]
    iapply ((runLater (F := Ideal) c (grid0.coords t) _ _ _ _ _ _ _ _ _ _ _ _ _ _ _ _ _ _ (fun h => hz ((atFirst_iff t).mp h))
      (iblk m c 0 t) (iblk m c 1 t) (iblk m c 2 t) (adj1Blk m c t d3) (adj2Blk m c t d4) (hidA m c) (hidB m c)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    iintro ⟨H0, H1, H2, H3, H4, ⟨%e5, H5⟩, ⟨%e6, H6⟩, HS0, HS1⟩
    isplitl [HS0 HS1 Hg]
    · isplitl [HS0 HS1]
      · isplitl [HS0]
        · iexact HS0
        · iexact HS1
      iexact Hg
    isplitl [Ho]; · iexact Ho
    isplitl [H0]; · iexact H0
    isplitl [H1]; · iexact H1
    isplitl [H2]; · iexact H2
    isplitl [H3]; · iexists d3; iexact H3
    isplitl [H4]; · iexists d4; iexact H4
    isplitl [H5]
    · iexists (k0_pay6 (F := Ideal) (adj1Blk m c t d3) (hidA m c))
      unfold owns; iexists _; isplitr
      swap; · iexact H5
      ipureintro
      refine (later_out6 (F := Ideal) c _ _ _ _ _ _ _ _ _ _ _ _ _ _ _ _ _ _ _ _ _ _ _ _ _ _ _ _ _).trans ?_
      exact (win0_5.fill_congr_cut _ (cut_prod1 m c t d3 noWords (hidA m c))).symm
    · iexists (k0_pay7 (F := Ideal) (adj2Blk m c t d4) (hidB m c))
      unfold owns; iexists _; isplitr
      swap; · iexact H6
      ipureintro
      refine (later_out7 (F := Ideal) c _ _ _ _ _ _ _ _ _ _ _ _ _ _ _ _ _ _ _ _ _ _ _ _ _ _ _ _ _).trans ?_
      exact (win0_6.fill_congr_cut _ (cut_prod2 m c t d4 noWords (hidB m c))).symm

end Cert.KernelIdeal.Body

end
-- ==== Proof.ValueI.lean ====
/-
  The idealized kernel's run, read: its two result arrays end at the specification's two functions of the arguments.

  Output block t, cut at the array's end, is written back onto rows 304·t … of its result array; by prod_row1 and
  prod_row2 what is written back is block t of A1 · hid1 and of A2 · hid2, where the hidden matrices the body keeps in
  scratch are the specification's (the feature block and the weight blocks are the whole arrays). The 33 blocks' rows
  inside the array are 0 … 9999, so every entry of each result array is written back by some point.
-/
import proofs.«133317_g24283745092303_cont_9to1_376_8_alg».proof.Proof.ObligI

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.Linear

local notation "𝕄" => MT nD τ sig Unit (Elt Ideal) ℕ (UR sig nD τ) ℕ

variable (m : (ℓ : Loc nD τ sig) → Buf (Elt Ideal) ℓ) (ρ : Dev nD → PrngReg)

open Cert.KernelIdeal.Payloads Cert.Spec

/-- Where the whole-array blocks and the output blocks lie, decided over the grid. -/
theorem whole_facts : ∀ t : Fin cfg0.N, (∀ a : Fin 2, win0_0.index t a = 0 ∧ win0_1.index t a = 0 ∧ win0_2.index t a = 0)
    ∧ win0_5.index t 0 = t.val ∧ win0_5.index t 1 = 0 ∧ win0_5.xsize (grid0.coords t) 1 = 128
    ∧ t.val * 304 + win0_5.xsize (grid0.coords t) 0 = min (t.val * 304 + 304) 10000
    ∧ win0_6.index t 0 = t.val ∧ win0_6.index t 1 = 0 ∧ win0_6.xsize (grid0.coords t) 1 = 128
    ∧ t.val * 304 + win0_6.xsize (grid0.coords t) 0 = min (t.val * 304 + 304) 10000 :=
  (by decide +kernel : ∀ t : Fin grid0.N, _)

/-- The feature block at the first point is the whole feature array, and the weight blocks the whole weight arrays. -/
theorem iblk0_eq (c : Dev nD) : (iblk m c 0 t₀ : S10000x128.Idx → EReal) = V m c main_arg0 := by
  funext y
  show V m c main_arg0 (((cfg0.win 0).blk t₀).view.emb y) = V m c main_arg0 y
  refine congrArg _ (funext fun a => Fin.ext ?_)
  show win0_0.index t₀ a * S10000x128.size a + 1 * (y a).val = (y a).val
  rw [((whole_facts t₀).1 a).1]; omega
theorem iblk1_eq (c : Dev nD) : (iblk m c 1 t₀ : S128x128.Idx → EReal) = V m c main_arg3 := by
  funext y
  show V m c main_arg3 (((cfg0.win 1).blk t₀).view.emb y) = V m c main_arg3 y
  refine congrArg _ (funext fun a => Fin.ext ?_)
  show win0_1.index t₀ a * S128x128.size a + 1 * (y a).val = (y a).val
  rw [((whole_facts t₀).1 a).2.1]; omega
theorem iblk2_eq (c : Dev nD) : (iblk m c 2 t₀ : S128x128.Idx → EReal) = V m c main_arg4 := by
  funext y
  show V m c main_arg4 (((cfg0.win 2).blk t₀).view.emb y) = V m c main_arg4 y
  refine congrArg _ (funext fun a => Fin.ext ?_)
  show win0_2.index t₀ a * S128x128.size a + 1 * (y a).val = (y a).val
  rw [((whole_facts t₀).1 a).2.2]; omega

/-- The scratch matrices hold the specification's hidden matrices. -/
theorem hidA_eq (c : Dev nD) : hidA m c = hid1 (V m c main_arg0) (V m c main_arg3) (V m c main_arg4) := by
  unfold hidA; rw [iblk0_eq, iblk1_eq, iblk2_eq]; exact pay4_eq _ _ _
theorem hidB_eq (c : Dev nD) : hidB m c = hid2 (V m c main_arg0) (V m c main_arg4) := by
  unfold hidB; rw [iblk0_eq, iblk2_eq]; exact pay5_eq _ _

/-- What point t writes back to the first result is block t of the specification's first result. -/
theorem flushed5_eq (c : Dev nD) (t : Fin cfg0.N) :
    (dats m 0 c).flushed 5 t = ((cfg0.win 5).blk t).view.read (Elt Ideal)
      (out1 (V m c main_arg0) (V m c main_arg1) (V m c main_arg3) (V m c main_arg4)) := by
  show (cfg0.win 5).cut (grid0.coords t) ((dats m 0 c).after 5 t) = _
  rw [after_5]
  funext j
  show k0_pay6 (F := Ideal) (adj1Blk m c t noWords) (hidA m c) (win0_5.xinj (grid0.coords t) j)
    = out1 (V m c main_arg0) (V m c main_arg1) (V m c main_arg3) (V m c main_arg4) (((cfg0.win 5).blk t).view.emb j)
  rw [pay6_eq, hidA_eq]
  exact prod_row1 m c t noWords _ j

/-- What point t writes back to the second result is block t of the specification's second result. -/
theorem flushed6_eq (c : Dev nD) (t : Fin cfg0.N) :
    (dats m 0 c).flushed 6 t = ((cfg0.win 6).blk t).view.read (Elt Ideal)
      (out2 (V m c main_arg0) (V m c main_arg2) (V m c main_arg4)) := by
  show (cfg0.win 6).cut (grid0.coords t) ((dats m 0 c).after 6 t) = _
  rw [after_6]
  funext j
  show k0_pay7 (F := Ideal) (adj2Blk m c t noWords) (hidB m c) (win0_6.xinj (grid0.coords t) j)
    = out2 (V m c main_arg0) (V m c main_arg2) (V m c main_arg4) (((cfg0.win 6).blk t).view.emb j)
  rw [pay7_eq, hidB_eq]
  exact prod_row2 m c t noWords _ j

/-- An entry of a result array lies in point t's block iff its coordinates lie in the block's rows and columns
    inside the array. -/
theorem mem_blk5 (t : Fin cfg0.N) (i : S10000x128.Idx) :
    i ∈ ((cfg0.win 5).blk t).view.set ↔ ∀ a : Fin 2, win0_5.index t a * S304x128.size a ≤ (i a).val
      ∧ (i a).val < win0_5.index t a * S304x128.size a + win0_5.xsize (grid0.coords t) a := by
  show i ∈ ((View.whole main_v0_0).slice (win0_5.rect t)).set ↔ _
  rw [View.set_slice_whole, Rect.mem_set_unit]
  exact Iff.rfl
theorem mem_blk6 (t : Fin cfg0.N) (i : S10000x128.Idx) :
    i ∈ ((cfg0.win 6).blk t).view.set ↔ ∀ a : Fin 2, win0_6.index t a * S304x128.size a ≤ (i a).val
      ∧ (i a).val < win0_6.index t a * S304x128.size a + win0_6.xsize (grid0.coords t) a := by
  show i ∈ ((View.whole main_v0_1).slice (win0_6.rect t)).set ↔ _
  rw [View.set_slice_whole, Rect.mem_set_unit]
  exact Iff.rfl

/-- Every entry of the first result array is in the block of the point its row falls in. -/
theorem cover5 (i : S10000x128.Idx) : ∃ t : Fin cfg0.N, (cfg0.win 5).flush t = true ∧ i ∈ ((cfg0.win 5).blk t).view.set := by
  have hi0 : (i 0).val < 10000 := (i 0).isLt
  have hi1 : (i 1).val < 128 := (i 1).isLt
  have hN : cfg0.N = 33 := N_0
  refine ⟨⟨(i 0).val / 304, by rw [hN]; omega⟩, flush0_5 _, ?_⟩
  rw [mem_blk5]
  obtain ⟨-, e0, e1, e2, e3, -, -, -, -⟩ := whole_facts ⟨(i 0).val / 304, by rw [hN]; omega⟩
  refine Fin.forall_fin_two.mpr ⟨?_, ?_⟩
  · show win0_5.index _ 0 * 304 ≤ (i 0).val ∧ (i 0).val < win0_5.index _ 0 * 304 + win0_5.xsize _ 0
    rw [e0]; dsimp only at e3 ⊢; omega
  · show win0_5.index _ 1 * 128 ≤ (i 1).val ∧ (i 1).val < win0_5.index _ 1 * 128 + win0_5.xsize _ 1
    rw [e1, e2]; omega

/-- Every entry of the second result array is in the block of the point its row falls in. -/
theorem cover6 (i : S10000x128.Idx) : ∃ t : Fin cfg0.N, (cfg0.win 6).flush t = true ∧ i ∈ ((cfg0.win 6).blk t).view.set := by
  have hi0 : (i 0).val < 10000 := (i 0).isLt
  have hi1 : (i 1).val < 128 := (i 1).isLt
  have hN : cfg0.N = 33 := N_0
  refine ⟨⟨(i 0).val / 304, by rw [hN]; omega⟩, flush0_6 _, ?_⟩
  rw [mem_blk6]
  obtain ⟨-, -, -, -, -, e0, e1, e2, e3⟩ := whole_facts ⟨(i 0).val / 304, by rw [hN]; omega⟩
  refine Fin.forall_fin_two.mpr ⟨?_, ?_⟩
  · show win0_6.index _ 0 * 304 ≤ (i 0).val ∧ (i 0).val < win0_6.index _ 0 * 304 + win0_6.xsize _ 0
    rw [e0]; dsimp only at e3 ⊢; omega
  · show win0_6.index _ 1 * 128 ≤ (i 1).val ∧ (i 1).val < win0_6.index _ 1 * 128 + win0_6.xsize _ 1
    rw [e1, e2]; omega

/-- The two result arrays after the run. -/
theorem final5 (c : Dev nD) : (dats m 0 c).arrAt 5 cfg0.N = out1 (V m c main_arg0) (V m c main_arg1) (V m c main_arg3) (V m c main_arg4) :=
  (dats m 0 c).arrAt_eq_of_cover 5 _ (fun t _ => flushed5_eq m c t) cover5
theorem final6 (c : Dev nD) : (dats m 0 c).arrAt 6 cfg0.N = out2 (V m c main_arg0) (V m c main_arg2) (V m c main_arg4) :=
  (dats m 0 c).arrAt_eq_of_cover 6 _ (fun t _ => flushed6_eq m c t) cover6

/-- What the launch hands the region is the invariant before the first point. -/
theorem hin (c : Dev nD) : Pipeline.ΦA spec0 c ⊢ (dats m 0 c).Φ 0 := by
  show Pipeline.ΦA spec0 c ⊢ Pipeline.ΦA spec0 c
  exact Idealize.SL.BI.Entails.refl _

/-- After the last point the invariant gives the scratch matrices back, their contents forgotten. -/
theorem hout (c : Dev nD) : (dats m 0 c).Φ (Fin.last cfg0.N) ⊢ Pipeline.ΦA spec0 c := by
  show PhiS m c (32 + 1) ⊢ Pipeline.ΦA spec0 c
  rw [show PhiS m c (32 + 1)
      = iprop(iprop(owns (c : Thread nD τ) scr0 fullShare (hidA m c) ∗ owns (c : Thread nD τ) scr1 fullShare (hidB m c)) ∗ (∃ r, prngReg c r)) from rfl,
    scratch_any]
  iintro ⟨⟨HS0, HS1⟩, Hg⟩
  isplitl [HS0 HS1]
  · isplitl [HS0]
    · iexists _; iexact HS0
    · iexists _; iexact HS1
  iexact Hg

set_option backward.isDefEq.respectTransparency.types false in
/-- Every weakly fair execution of the idealized kernel's program terminates without a fault, each array of the
    region at what the proof data computes. -/
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hin := hin m) (hout := hout m)

/-- The run, read: the two results at the specification's functions of the arguments, the arguments unchanged. -/
theorem run : θ_run defs (onTc (τ := τ) (main (F := Ideal))) ⟨m, fun _ => 0, ρ⟩ (fun r => ∀ c : Dev nD,
      r.2.mem ((c.tc : Thread nD τ).loc main_v0_0)
        = out1 (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_v0_1)
        = out2 (m ((c.tc : Thread nD τ).loc main_arg0)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 5).trans (final5 m c), ((h c).1 6).trans (final6 m c),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 4).trans (((dats m 0 c).arrAt_in 4 rfl _).trans ((A_eq m c 4).trans (V_main_arg2 m c))),
      ((h c).1 1).trans (((dats m 0 c).arrAt_in 1 rfl _).trans ((A_eq m c 1).trans (V_main_arg3 m c))),
      ((h c).1 2).trans (((dats m 0 c).arrAt_in 2 rfl _).trans ((A_eq m c 2).trans (V_main_arg4 m c)))⟩) (run_main m ρ)

/-- The idealized kernel's frame: the run with the results dropped. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2.2) (run m ρ)

end Cert.KernelIdeal.Body

end
-- ==== Proof.RefRun.lean ====
/-
  The reference program's @main as the straight line of its twenty-nine host operations — the three functions it
  calls (elu, with the two selects it calls in turn, and relu) written out at their call sites over the buffers
  each call names — and what every weakly fair execution of it ends with: each of the two result arrays at the
  operations' composed term of the argument arrays, and the five argument arrays unchanged.

  With X, A1, A2, Wm, Ws the contents of the five arguments: the first result is
  A1 · (elu (X · Wm) * exp ((−1) * max (X · Ws) 0)) and the second is
  A2 · (max (X · Ws) 0 * exp ((−1) * max (X · Ws) 0) * exp ((−1) * max (X · Ws) 0)), products of arrays entry by
  entry except the matrix products written with a dot; elu y is select (y > 0) y (1 * expm1 (select (y > 0) 0 y)).
-/
import proofs.«133317_g24283745092303_cont_9to1_376_8_alg».proof.Proof.Gen.ReferenceIdeal
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-! ## The composed terms -/

/-- The zero array: the scalar zero broadcast. -/
def zeros : (⟨S10000x128, .f32⟩ : BufTy).Contents (Elt F) :=
  broadcastInDim S10000x128 ![] bcast_S_S10000x128 (constant S_ .f32 0x00000000#32)

/-- elu as the program computes it: select (y > 0) y (1 * expm1 (select (y > 0) 0 y)), entry by entry. -/
def elu (y : (⟨S10000x128, .f32⟩ : BufTy).Contents (Elt F)) : (⟨S10000x128, .f32⟩ : BufTy).Contents (Elt F) :=
  select (cmpf .ogt y zeros) y
    (mulf (broadcastInDim S10000x128 ![] bcast_S_S10000x128 (constant S_ .f32 0x3F800000#32))
      (Host.expm1 (select (cmpf .ogt y zeros) zeros y)))

/-- relu: max y 0, entry by entry. -/
def relu (y : (⟨S10000x128, .f32⟩ : BufTy).Contents (Elt F)) : (⟨S10000x128, .f32⟩ : BufTy).Contents (Elt F) := maximumf y zeros

/-- The attenuation exp ((−1) * s), entry by entry. -/
def att (s : (⟨S10000x128, .f32⟩ : BufTy).Contents (Elt F)) : (⟨S10000x128, .f32⟩ : BufTy).Contents (Elt F) :=
  Host.exp (mulf (broadcastInDim S10000x128 ![] bcast_S_S10000x128 (constant S_ .f32 0xBF800000#32)) s)

/-- X · W for a 10000 × 128 by 128 × 128 product, as the host computes it. -/
def dotW (X : (⟨S10000x128, .f32⟩ : BufTy).Contents (Elt F)) (W : (⟨S128x128, .f32⟩ : BufTy).Contents (Elt F)) : (⟨S10000x128, .f32⟩ : BufTy).Contents (Elt F) :=
  Host.dotGeneral dot_S10000x128_S128x128_S10000x128_1_0_0_1_n_n none X W

/-- A · H for a 10000 × 10000 by 10000 × 128 product, as the host computes it. -/
def dotA (A : (⟨S10000x10000, .f32⟩ : BufTy).Contents (Elt F)) (H : (⟨S10000x128, .f32⟩ : BufTy).Contents (Elt F)) : (⟨S10000x128, .f32⟩ : BufTy).Contents (Elt F) :=
  Host.dotGeneral dot_S10000x10000_S10000x128_S10000x128_1_0_0_1_n_n none A H

/-- The first result: A1 · (elu (X · Wm) * att (relu (X · Ws))). -/
def res8 (X : (⟨S10000x128, .f32⟩ : BufTy).Contents (Elt F)) (A1 : (⟨S10000x10000, .f32⟩ : BufTy).Contents (Elt F)) (Wm Ws : (⟨S128x128, .f32⟩ : BufTy).Contents (Elt F)) : (⟨S10000x128, .f32⟩ : BufTy).Contents (Elt F) :=
  dotA A1 (mulf (elu (dotW X Wm)) (att (relu (dotW X Ws))))

/-- The second result: A2 · (relu (X · Ws) * att (relu (X · Ws)) * att (relu (X · Ws))). -/
def res11 (X : (⟨S10000x128, .f32⟩ : BufTy).Contents (Elt F)) (A2 : (⟨S10000x10000, .f32⟩ : BufTy).Contents (Elt F)) (Ws : (⟨S128x128, .f32⟩ : BufTy).Contents (Elt F)) : (⟨S10000x128, .f32⟩ : BufTy).Contents (Elt F) :=
  dotA A2 (mulf (mulf (relu (dotW X Ws)) (att (relu (dotW X Ws)))) (att (relu (dotW X Ws))))

/-! ## The straight line -/

/-- @main's operations in order, the calls written out: X · Wm; elu's fifteen (its zero, broadcast and comparison,
    twice; the scalar zero; the first select's three — the zero at its own type, broadcast, the select —; expm1; the
    one, broadcast; the product; the second select); X · Ws; relu's three; then @main's own nine. -/
abbrev ops : List (HloOp τ sig (Elt F)) :=
  [ binary main_arg0 main_arg3 main_v0 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    TRef.nullary main_call0.cst (constant S_ .f32 0x00000000#32),
    TRef.unary main_call0.cst main_call0.v0 (broadcastInDim S10000x128 ![] bcast_S_S10000x128),
    TRef.binary (.of main_v0) main_call0.v0 main_call0.v1 (cmpf .ogt),
    TRef.nullary main_call0.cst_0 (constant S_ .f32 0x00000000#32),
    TRef.unary main_call0.cst_0 main_call0.v2 (broadcastInDim S10000x128 ![] bcast_S_S10000x128),
    TRef.binary (.of main_v0) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S10000x128 ![] bcast_S_S10000x128),
    TRef.ternary main_call0.v3 main_call0.call0.v1 (.of main_v0) main_call0.call0.v2 select,
    TRef.unary main_call0.call0.v2 main_call0.v5 Host.expm1,
    TRef.nullary main_call0.cst_2 (constant S_ .f32 0x3F800000#32),
    TRef.unary main_call0.cst_2 main_call0.v6 (broadcastInDim S10000x128 ![] bcast_S_S10000x128),
    TRef.binary main_call0.v6 main_call0.v5 main_call0.v7 mulf,
    TRef.ternary main_call0.v1 (.of main_v0) main_call0.v7 main_call0.call1.v0 select,
    binary main_arg0 main_arg4 main_v2 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    TRef.nullary main_call1.cst (constant S_ .f32 0x00000000#32),
    TRef.unary main_call1.cst main_call1.v0 (broadcastInDim S10000x128 ![] bcast_S_S10000x128),
    TRef.binary (.of main_v2) main_call1.v0 main_call1.v1 maximumf,
    nullary main_cst (constant S_ .f32 0xBF800000#32),
    unary main_cst main_v4 (broadcastInDim S10000x128 ![] bcast_S_S10000x128 : (⟨S_, .f32⟩ : BufTy).Contents (Elt F) → (⟨S10000x128, .f32⟩ : BufTy).Contents (Elt F)),
    binary main_v4 main_v3 main_v5 (mulf : (⟨S10000x128, .f32⟩ : BufTy).Contents (Elt F) → (⟨S10000x128, .f32⟩ : BufTy).Contents (Elt F) → (⟨S10000x128, .f32⟩ : BufTy).Contents (Elt F)),
    unary main_v5 main_v6 (Host.exp : (⟨S10000x128, .f32⟩ : BufTy).Contents (Elt F) → (⟨S10000x128, .f32⟩ : BufTy).Contents (Elt F)),
    binary main_v1 main_v6 main_v7 (mulf : (⟨S10000x128, .f32⟩ : BufTy).Contents (Elt F) → (⟨S10000x128, .f32⟩ : BufTy).Contents (Elt F) → (⟨S10000x128, .f32⟩ : BufTy).Contents (Elt F)),
    binary main_arg1 main_v7 main_v8 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    binary main_v3 main_v6 main_v9 (mulf : (⟨S10000x128, .f32⟩ : BufTy).Contents (Elt F) → (⟨S10000x128, .f32⟩ : BufTy).Contents (Elt F) → (⟨S10000x128, .f32⟩ : BufTy).Contents (Elt F)),
    binary main_v9 main_v6 main_v10 (mulf : (⟨S10000x128, .f32⟩ : BufTy).Contents (Elt F) → (⟨S10000x128, .f32⟩ : BufTy).Contents (Elt F) → (⟨S10000x128, .f32⟩ : BufTy).Contents (Elt F)),
    binary main_arg2 main_v10 main_v11 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)) ]

-- twenty-nine binds re-associated
set_option maxRecDepth 1024 in
/-- @main is that straight line: the called functions unfolded at their calls, both sides are one chain of steps once
    sequencing is re-associated. -/
theorem main_eq (c : Dev nD) : main (F := F) c = seq ops := by
  simp only [main, fn_elu.body, fn_where.body, fn_where_0.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub .., binary_bufs_sub .., nullary_bufs_sub ..,
    unary_bufs_sub .., binary_bufs_sub .., nullary_bufs_sub .., unary_bufs_sub .., binary_bufs_sub .., unary_bufs_sub ..,
    binary_bufs_sub .., binary_bufs_sub .., binary_bufs_sub .., binary_bufs_sub .., binary_bufs_sub ..⟩

/-- Every buffer after the line, from any contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## What each buffer of interest holds after the line -/

/-- The first result's buffer holds `res8` of the arguments' contents. -/
theorem v8_eq (V : Valuation τ sig (Elt F)) :
    after ops V (main_v8 : DevRef τ sig)
      = res8 (V (main_arg0 : DevRef τ sig)) (V (main_arg1 : DevRef τ sig)) (V (main_arg3 : DevRef τ sig)) (V (main_arg4 : DevRef τ sig)) := by
  after_results
  rfl

/-- The second result's buffer holds `res11` of the arguments' contents. -/
theorem v11_eq (V : Valuation τ sig (Elt F)) :
    after ops V (main_v11 : DevRef τ sig)
      = res11 (V (main_arg0 : DevRef τ sig)) (V (main_arg2 : DevRef τ sig)) (V (main_arg4 : DevRef τ sig)) := by
  after_results
  rfl

theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results
theorem arg3_eq (V : Valuation τ sig (Elt F)) : after ops V (main_arg3 : DevRef τ sig) = V (main_arg3 : DevRef τ sig) := by
  after_results
theorem arg4_eq (V : Valuation τ sig (Elt F)) : after ops V (main_arg4 : DevRef τ sig) = V (main_arg4 : DevRef τ sig) := by
  after_results

/-! ## The run -/

/-- On every device, for any float values, from any memory with zero counters: every weakly fair execution of @main
    terminates with the two results at `res8` and `res11` of the arguments' launch contents and the five arguments
    unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v8) = res8 (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_v11) = res11 (m ((c.tc : Thread nD τ).loc main_arg0)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_v8).trans (v8_eq _), (h c main_v11).trans (v11_eq _),
      (h c main_arg0).trans (arg0_eq _), (h c main_arg1).trans (arg1_eq _), (h c main_arg2).trans (arg2_eq _),
      (h c main_arg3).trans (arg3_eq _), (h c main_arg4).trans (arg4_eq _)⟩)
    (run_all m ρ)

/-- The run with the results dropped: @main terminates and its five arguments end unchanged. -/
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2.2) (run m ρ)

end Cert.ReferenceIdeal.RefRun

end
-- ==== Proof.RefValue.lean ====
/-
  The reference's two composed terms are the specification's two results, at the ideal values.

  Each host product is the plain matrix product: its dimension record contracts the left operand's columns with the
  right operand's rows and keeps the other two axes in order. Entry by entry the rest is arithmetic on the extended
  reals. With y an entry of X · Wm and s an entry of X · Ws:

  * the program's elu is select (y > 0) y (1 * expm1 (select (y > 0) 0 y)); where y > 0 both selects take their first
    branch and the value is y, and otherwise the inner select is y, so the value is 1 * (e^y − 1) = e^y − 1: in both
    cases select (y > 0) y (e^y − 1);
  * relu is max s 0;
  * the attenuation is exp ((−1) * t), and (−1) * t = −t = 0 − t.

  The three literals 0x00000000, 0x3F800000 and 0xBF800000 denote 0, 1 and −1. No finiteness is needed.
-/
import proofs.«133317_g24283745092303_cont_9to1_376_8_alg».proof.Proof.RefRun
import proofs.«133317_g24283745092303_cont_9to1_376_8_alg».proof.Proof.Spec
import Idealize.ShloMosaic.PureOps.IdealRules

noncomputable section

namespace Cert.ReferenceIdeal.RefValue

open Cert.ReferenceIdeal Cert.ReferenceIdeal.RefRun Idealize.ShloMosaic Idealize.ShloMosaic.ValueIdx Cert.Linear

/-! ## The two dimension records contract columns with rows -/

/-- [10000,128] × [128,128]: one contracted axis of extent 128; the left operand is read at (i 0, q), the right at (q, i 1). -/
theorem contracts_W : Contracts (R := 10000) (K := 128) (N := 128) dot_S10000x128_S128x128_S10000x128_1_0_0_1_n_n where
  rank := rfl
  size := rfl
  lhs0 := fun _ _ => rfl
  lhs1 := fun i q => DotDims.lhsIdx_val_of_single _ rfl i q
  rhs0 := fun i q => DotDims.rhsIdx_val_of_single _ rfl i q
  rhs1 := fun _ _ => rfl

/-- [10000,10000] × [10000,128]: one contracted axis of extent 10000, read the same way. -/
theorem contracts_A : Contracts (R := 10000) (K := 10000) (N := 128) dot_S10000x10000_S10000x128_S10000x128_1_0_0_1_n_n where
  rank := rfl
  size := rfl
  lhs0 := fun _ _ => rfl
  lhs1 := fun i q => DotDims.lhsIdx_val_of_single _ rfl i q
  rhs0 := fun i q => DotDims.rhsIdx_val_of_single _ rfl i q
  rhs1 := fun _ _ => rfl

/-- The host's X · W is the matrix product. -/
theorem dotW_eq (X : (Mat 10000 128).Idx → EReal) (W : (Mat 128 128).Idx → EReal) :
    dotW (F := Ideal) X W = matProd X W :=
  dotGeneral_eq contracts_W none .single X W

/-- The host's A · H is the matrix product. -/
theorem dotA_eq (A : (Mat 10000 10000).Idx → EReal) (H : (Mat 10000 128).Idx → EReal) :
    dotA (F := Ideal) A H = matProd A H :=
  dotGeneral_eq contracts_A none .single A H

/-! ## The literals -/

theorem ofBits_one : Ideal.ofBits .f32 0x3F800000#32 = 1 := IdealRules.sign_bit.ideal_onePat .f32
theorem ofBits_negOne : Ideal.ofBits .f32 0xBF800000#32 = -1 := IdealRules.sign_bit.ideal_negOnePat .f32

/-! ## Entry by entry -/

/-- The program's elu at one entry: the two selects on the same comparison collapse to one. -/
theorem elu_scalar (y : EReal) :
    Scalar.select (Ideal.cmp .ogt y 0) y (1 * (Ideal.exp (Scalar.select (Ideal.cmp .ogt y 0) 0 y) - 1))
      = Scalar.select (Ideal.cmp .ogt y 0) y (Ideal.exp y - 1) := by
  rcases BitVec.eq_zero_or_eq_one (Ideal.cmp .ogt y 0) with h | h
  · simp only [h, select_zero, one_mul]
  · simp only [h, select_one]

theorem elu_apply (Y : (Mat 10000 128).Idx → EReal) (i : (Mat 10000 128).Idx) :
    elu (F := Ideal) Y i = Scalar.select (Ideal.cmp .ogt (Y i) 0) (Y i) (Ideal.exp (Y i) - 1) := by
  show Scalar.select (Ideal.cmp .ogt (Y i) (Ideal.ofBits .f32 0x00000000#32)) (Y i)
      (Ideal.ofBits .f32 0x3F800000#32
        * (Ideal.exp (Scalar.select (Ideal.cmp .ogt (Y i) (Ideal.ofBits .f32 0x00000000#32)) (Ideal.ofBits .f32 0x00000000#32) (Y i)) - 1)) = _
  rw [Ideal.ofBits_zero_f32, ofBits_one]
  exact elu_scalar (Y i)

theorem relu_apply (Y : (Mat 10000 128).Idx → EReal) (i : (Mat 10000 128).Idx) :
    relu (F := Ideal) Y i = max (Y i) 0 := by
  show max (Y i) (Ideal.ofBits .f32 0x00000000#32) = _
  rw [Ideal.ofBits_zero_f32]

theorem att_apply (S : (Mat 10000 128).Idx → EReal) (i : (Mat 10000 128).Idx) :
    att (F := Ideal) S i = Ideal.exp (0 - S i) := by
  show Ideal.exp (Ideal.ofBits .f32 0xBF800000#32 * S i) = _
  rw [ofBits_negOne, neg_one_mul, zero_sub]

/-! ## The two results -/

/-- The first composed term is A1 · hid1. -/
theorem res8_eq (X : (Mat 10000 128).Idx → EReal) (A1 : (Mat 10000 10000).Idx → EReal) (Wm Ws : (Mat 128 128).Idx → EReal) :
    res8 (F := Ideal) X A1 Wm Ws = Cert.Spec.out1 X A1 Wm Ws := by
  refine (dotA_eq A1 _).trans ?_
  refine congrArg (matProd A1) (funext fun i => ?_)
  show elu (F := Ideal) (dotW X Wm) i * att (relu (dotW X Ws)) i = Cert.Spec.eluAtt (matProd X Wm i) (matProd X Ws i)
  rw [elu_apply, att_apply, relu_apply, dotW_eq, dotW_eq]
  rfl

/-- The second composed term is A2 · hid2. -/
theorem res11_eq (X : (Mat 10000 128).Idx → EReal) (A2 : (Mat 10000 10000).Idx → EReal) (Ws : (Mat 128 128).Idx → EReal) :
    res11 (F := Ideal) X A2 Ws = Cert.Spec.out2 X A2 Ws := by
  refine (dotA_eq A2 _).trans ?_
  refine congrArg (matProd A2) (funext fun i => ?_)
  show relu (F := Ideal) (dotW X Ws) i * att (relu (dotW X Ws)) i * att (relu (dotW X Ws)) i = Cert.Spec.reluAtt2 (matProd X Ws i)
  rw [att_apply, relu_apply, dotW_eq]
  rfl

end Cert.ReferenceIdeal.RefValue

end
-- ==== Proof.lean ====
/-
  The certificate: a fused graph-convolution kernel against its jnp reference, over the extended reals.

  Both programs compute, from a 10000 × 128 feature matrix X, two 128 × 128 weight matrices and two 10000 × 10000
  adjacency matrices A1 and A2, the two products A1 · (elu (X · Wm) · e^(−S)) and A2 · (S · e^(−S) · e^(−S)) with
  S = max (X · Ws) 0 (Proof/Spec.lean). The kernel fills the two hidden matrices into scratch at its first grid
  point and then multiplies one 304-row block of each adjacency matrix per point, the last block overhanging the
  arrays by 32 rows; the reference is five host products and entrywise operations. At the ideal values a change of
  float format is the identity and every product is the plain sum of products, so the two sides are the same sums
  term by term and no finiteness of the inputs is used.

  The frames: the word-level kernel's from a run of its body that names no value (Proof/FrameK.lean), the idealized
  kernel's and the reference's from their value runs with the results dropped. The ideal pass rewrote nothing, so
  the idealization's statement is `True`.
-/
import proofs.«133317_g24283745092303_cont_9to1_376_8_alg».proof.Defs
import proofs.«133317_g24283745092303_cont_9to1_376_8_alg».proof.Proof.Gen.Kernel
import proofs.«133317_g24283745092303_cont_9to1_376_8_alg».proof.Proof.Gen.KernelIdeal
import proofs.«133317_g24283745092303_cont_9to1_376_8_alg».proof.Proof.Gen.ReferenceIdeal
import proofs.«133317_g24283745092303_cont_9to1_376_8_alg».proof.Proof.Gen.Pre_finite_inputs
import proofs.«133317_g24283745092303_cont_9to1_376_8_alg».proof.Proof.FrameK
import proofs.«133317_g24283745092303_cont_9to1_376_8_alg».proof.Proof.ValueI
import proofs.«133317_g24283745092303_cont_9to1_376_8_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Body.frame (F := Bits) m ρ

theorem frame_ki : Cert.frame_KernelIdeal := fun m ρ _ => Cert.KernelIdeal.Body.frame m ρ

theorem frame_ri : Cert.frame_ReferenceIdeal := fun m ρ _ => Cert.ReferenceIdeal.RefRun.frame (F := Ideal) m ρ

theorem preserves : Cert.preserves_Kernel_KernelIdeal := trivial

/-- From memories that agree on the five arguments both programs end with the specification's two results of those
    arguments. -/
theorem algebraic : Cert.algebraic_KernelIdeal_ReferenceIdeal := by
  intro m ρ m' ρ' _ hagree
  refine ⟨fun c => Cert.Spec.out1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.Spec.out2 (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)),
    Cert.KernelIdeal.Body.run m ρ, ?_⟩
  refine (θ_run Cert.ReferenceIdeal.defs _ _).mono (fun _ h c => ⟨?_, ?_, (h c).2.2⟩)
    (Cert.ReferenceIdeal.RefRun.run (F := Ideal) m' ρ')
  · rw [(h c).1, Cert.ReferenceIdeal.RefValue.res8_eq, (hagree c).1, (hagree c).2.1, (hagree c).2.2.2.1, (hagree c).2.2.2.2]
  · rw [(h c).2.1, Cert.ReferenceIdeal.RefValue.res11_eq, (hagree c).1, (hagree c).2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
